-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x768 : Shape := ⟨3, ![16, 512, 768]⟩
abbrev S16x1024x768 : Shape := ⟨3, ![16, 1024, 768]⟩
abbrev S512x768 : Shape := ⟨2, ![512, 768]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S16x1024x768 : S_.BroadcastsInDim S16x1024x768 (![] : Fin 0 → Fin S16x1024x768.rank)
  reducesTo_S16x1024x768_S_d0_1_2 : S16x1024x768.ReducesTo [0, 1, 2] S_
  bcast_S_S512x768 : S_.BroadcastsInDim S512x768 (![] : Fin 0 → Fin S512x768.rank)
  reducesTo_S512x768_S_d0_1 : S512x768.ReducesTo [0, 1] S_

variable [Facts]

def fn_part1 {F : FTy → Type} [FloatOps F] (main_arg4 : FVec F S512x768 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  main_v23

def fn {F : FTy → Type} [FloatOps F] (main_arg0 : FVec F S16x512x768 .f32) (main_arg1 : FVec F S16x1024x768 .f32) (main_arg2 : FVec F S512x768 .f32) (main_arg3 : FVec F S512x768 .f32) (main_arg4 : FVec F S512x768 .f32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S16x1024x768 .f32 := Host.absf main_arg1
  let main_cst_0 : FVec F S_ .f32 := constant S_ .f32 0x7F800000#32
  let main_v5 : FVec F S16x1024x768 .f32 := broadcastInDim S16x1024x768 ![] bcast_S_S16x1024x768 main_cst_0
  let main_v6 : IVec S16x1024x768 1 := cmpf .olt main_v4 main_v5
  let main_c_1 : IVec S_ 1 := constantI S_ 1 1#1
  let main_v7 : IVec S_ 1 := (fun x v => Host.reduce IntOp.andi x v reducesTo_S16x1024x768_S_d0_1_2 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_v13 main_v16
-- ==== Kernel.lean ====
abbrev S16x512x768 : Shape := ⟨3, ![16, 512, 768]⟩
abbrev S16x1024x768 : Shape := ⟨3, ![16, 1024, 768]⟩
abbrev S512x768 : Shape := ⟨2, ![512, 768]⟩
abbrev S768x512 : Shape := ⟨2, ![768, 512]⟩
abbrev S16x512x512 : Shape := ⟨3, ![16, 512, 512]⟩
abbrev S1x512x768 : Shape := ⟨3, ![1, 512, 768]⟩
abbrev S1x1024x768 : Shape := ⟨3, ![1, 1024, 768]⟩
abbrev S1x512x512 : Shape := ⟨3, ![1, 512, 512]⟩
abbrev S512x512 : Shape := ⟨2, ![512, 512]⟩
abbrev S1024x512 : Shape := ⟨2, ![1024, 512]⟩
abbrev S1024x768 : Shape := ⟨2, ![1024, 768]⟩
abbrev S512x64 : Shape := ⟨2, ![512, 64]⟩
abbrev S1024x64 : Shape := ⟨2, ![1024, 64]⟩
abbrev S64x1024 : Shape := ⟨2, ![64, 1024]⟩
abbrev S512x1024 : Shape := ⟨2, ![512, 1024]⟩
abbrev S512 : Shape := ⟨1, ![512]⟩
abbrev S512x1 : Shape := ⟨2, ![512, 1]⟩
abbrev S1x512x64 : Shape := ⟨3, ![1, 512, 64]⟩

abbrev nBuf : Space → Nat
  | .hbm => 9
  | .vmem => 12
  | .smem => 0
  | _ => 0

abbrev bufTy : (tb : Table) → Fin (tcTables nBuf tb) → BufTy
  | .hbm, ⟨0, _⟩ => ⟨S16x512x768, .f32⟩
  | .hbm, ⟨1, _⟩ => ⟨S16x1024x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S768x512, .f32⟩
  | .hbm, ⟨6, _⟩ => ⟨S768x512, .f32⟩
  | .hbm, ⟨7, _⟩ => ⟨S768x512, .f32⟩
  | .hbm, ⟨8, _⟩ => ⟨S16x512x512, .f32⟩
  | .local _ .vmem, ⟨0, _⟩ => ⟨S1x512x768, .f32⟩
  | .local _ .vmem, ⟨1, _⟩ => ⟨S1x512x768, .f32⟩
  | .local _ .vmem, ⟨2, _⟩ => ⟨S1x1024x768, .f32⟩
  | .local _ .vmem, ⟨3, _⟩ => ⟨S1x1024x768, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S1x512x512, .f32⟩
  | .local _ .vmem, ⟨8, _⟩ => ⟨S1x512x512, .f32⟩
  | .local _ .vmem, ⟨9, _⟩ => ⟨S512x512, .f32⟩
  | .local _ .vmem, ⟨10, _⟩ => ⟨S1024x512, .f32⟩
  | .local _ .vmem, ⟨11, _⟩ => ⟨S1024x512, .f32⟩
  | _, _ => ⟨S16x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x768_S768x512_1_0 : S512x768.Transposes [1, 0] S768x512
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x64_0_0 : ∀ a, (![0, 0] : Fin 2 → Nat) a + S512x64.size a ≤ S512x512.size a
  h_S512x64 : 0 < S512x64.numel
  inb_S1024x512_S1024x64_0_0 : ∀ a, (![0, 0] : Fin 2 → Nat) a + S1024x64.size a ≤ S1024x512.size a
  h_S1024x64 : 0 < S1024x64.numel
  transposes_S1024x64_p1_0_S64x1024 : S1024x64.Transposes [1, 0] S64x1024
  reduces_S512x1024_S512 : S512x1024.Reduces [1] S512
  shapeCasts_S512_S512x1 : S512.ShapeCasts S512x1
  broadcasts_S512x1_S512x1024 : S512x1.Broadcasts S512x1024
  inb_S1x512x512_S1x512x64_0_0_0 : ∀ a, (![0, 0, 0] : Fin 3 → Nat) a + S1x512x64.size a ≤ S1x512x512.size a
  h_S1x512x64 : 0 < S1x512x64.numel
  shapeCasts_S1x512x64_S512x64 : S1x512x64.ShapeCasts S512x64
  shapeCasts_S512x64_S1x512x64 : S512x64.ShapeCasts S1x512x64
  inb_S512x512_S512x64_0_64 : ∀ a, (![0, 64] : Fin 2 → Nat) a + S512x64.size a ≤ S512x512.size a
  inb_S1024x512_S1024x64_0_64 : ∀ a, (![0, 64] : Fin 2 → Nat) a + S1024x64.size a ≤ S1024x512.size a
  inb_S1x512x512_S1x512x64_0_0_64 : ∀ a, (![0, 0, 64] : Fin 3 → Nat) a + S1x512x64.size a ≤ S1x512x512.size a
  inb_S512x512_S512x64_0_128 : ∀ a, (![0, 128] : Fin 2 → Nat) a + S512x64.size a ≤ S512x512.size a
  inb_S1024x512_S1024x64_0_128 : ∀ a, (![0, 128] : Fin 2 → Nat) a + S1024x64.size a ≤ S1024x512.size a
  inb_S1x512x512_S1x512x64_0_0_128 : ∀ a, (![0, 0, 128] : Fin 3 → Nat) a + S1x512x64.size a ≤ S1x512x512.size a
  inb_S512x512_S512x64_0_192 : ∀ a, (![0, 192] : Fin 2 → Nat) a + S512x64.size a ≤ S512x512.size a
  inb_S1024x512_S1024x64_0_192 : ∀ a, (![0, 192] : Fin 2 → Nat) a + S1024x64.size a ≤ S1024x512.size a
  inb_S1x512x512_S1x512x64_0_0_192 : ∀ a, (![0, 0, 192] : Fin 3 → Nat) a + S1x512x64.size a ≤ S1x512x512.size a
  inb_S512x512_S512x64_0_256 : ∀ a, (![0, 256] : Fin 2 → Nat) a + S512x64.size a ≤ S512x512.size a
  inb_S1024x512_S1024x64_0_256 : ∀ a, (![0, 256] : Fin 2 → Nat) a + S1024x64.size a ≤ S1024x512.size a
  inb_S1x512x512_S1x512x64_0_0_256 : ∀ a, (![0, 0, 256] : Fin 3 → Nat) a + S1x512x64.size a ≤ S1x512x512.size a
  inb_S512x512_S512x64_0_320 : ∀ a, (![0, 320] : Fin 2 → Nat) a + S512x64.size a ≤ S512x512.size a
  inb_S1024x512_S1024x64_0_320 : ∀ a, (![0, 320] : Fin 2 → Nat) a + S1024x64.size a ≤ S1024x512.size a
  inb_S1x512x512_S1x512x64_0_0_320 : ∀ a, (![0, 0, 320] : Fin 3 → Nat) a + S1x512x64.size a ≤ S1x512x512.size a
  inb_S512x512_S512x64_0_384 : ∀ a, (![0, 384] : Fin 2 → Nat) a + S512x64.size a ≤ S512x512.size a
  inb_S1024x512_S1024x64_0_384 : ∀ a, (![0, 384] : Fin 2 → Nat) a + S1024x64.size a ≤ S1024x512.size a
  inb_S1x512x512_S1x512x64_0_0_384 : ∀ a, (![0, 0, 384] : Fin 3 → Nat) a + S1x512x64.size a ≤ S1x512x512.size a
  inb_S512x512_S512x64_0_448 : ∀ a, (![0, 448] : Fin 2 → Nat) a + S512x64.size a ≤ S512x512.size a
  inb_S1024x512_S1024x64_0_448 : ∀ a, (![0, 448] : Fin 2 → Nat) a + S1024x64.size a ≤ S1024x512.size a
  inb_S1x512x512_S1x512x64_0_0_448 : ∀ a, (![0, 0, 448] : Fin 3 → Nat) a + S1x512x64.size a ≤ S1x512x512.size a
  dot_S512x768_S768x512_S512x512_1_0_0_1_n_n_wf : DotDims.WF S512x768 S768x512 S512x512 [1] [0] [0] [1] [] []
  dot_S1024x768_S768x512_S1024x512_1_0_0_1_n_n_wf : DotDims.WF S1024x768 S768x512 S1024x512 [1] [0] [0] [1] [] []
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S16x512x768.size a
  hwx0_0 : ∀ i : grid0.Coords, EltTy.bits .f32 = 32 ∨ (Rect.block (s := S16x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S16x1024x768.size a
  hwx0_1 : ∀ i : grid0.Coords, EltTy.bits .f32 = 32 ∨ (Rect.block (s := S16x1024x768) S1x1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .f32 = 32 ∨ (Rect.block (s := S768x512) S768x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .f32 = 32 ∨ (Rect.block (s := S768x512) S768x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x512.size a ≤ S768x512.size a
  hwx0_4 : ∀ i : grid0.Coords, EltTy.bits .f32 = 32 ∨ (Rect.block (s := S768x512) S768x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S16x512x512.size a
  hwx0_5 : ∀ i : grid0.Coords, EltTy.bits .f32 = 32 ∨ (Rect.block (s := S16x512x512) S1x512x512.size (cc0_transform_5 i) (hinb0_5 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S768x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512x768 : Shape := ⟨3, ![16, 512, 768]⟩
abbrev S16x1024x768 : Shape := ⟨3, ![16, 1024, 768]⟩
abbrev S512x768 : Shape := ⟨2, ![512, 768]⟩
abbrev S16x512x512 : Shape := ⟨3, ![16, 512, 512]⟩
abbrev S16x512x8x64 : Shape := ⟨4, ![16, 512, 8, 64]⟩
abbrev S16x8x512x64 : Shape := ⟨4, ![16, 8, 512, 64]⟩
abbrev S16x1024x512 : Shape := ⟨3, ![16, 1024, 512]⟩
abbrev S16x1024x8x64 : Shape := ⟨4, ![16, 1024, 8, 64]⟩
abbrev S16x8x1024x64 : Shape := ⟨4, ![16, 8, 1024, 64]⟩
abbrev S16x8x512x1024 : Shape := ⟨4, ![16, 8, 512, 1024]⟩
abbrev S_ : Shape := ⟨0, ![]⟩
abbrev S16x8x512 : Shape := ⟨3, ![16, 8, 512]⟩
abbrev S16x8x512x1 : Shape := ⟨4, ![16, 8, 512, 1]⟩

abbrev nBuf : Space → Nat
  | .hbm => 53
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S16x1024x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S16x512x512, .f32⟩
  | .hbm, ⟨6, _⟩ => ⟨S16x512x8x64, .f32⟩
  | .hbm, ⟨7, _⟩ => ⟨S16x8x512x64, .f32⟩
  | .hbm, ⟨8, _⟩ => ⟨S16x1024x512, .f32⟩
  | .hbm, ⟨9, _⟩ => ⟨S16x1024x8x64, .f32⟩
  | .hbm, ⟨10, _⟩ => ⟨S16x8x1024x64, .f32⟩
  | .hbm, ⟨11, _⟩ => ⟨S16x1024x512, .f32⟩
  | .hbm, ⟨12, _⟩ => ⟨S16x1024x8x64, .f32⟩
  | .hbm, ⟨13, _⟩ => ⟨S16x8x1024x64, .f32⟩
  | .hbm, ⟨14, _⟩ => ⟨S16x8x512x1024, .f32⟩
  | .hbm, ⟨15, _⟩ => ⟨S_, .f32⟩
  | .hbm, ⟨16, _⟩ => ⟨S16x8x512x1024, .f32⟩
  | .hbm, ⟨17, _⟩ => ⟨S16x8x512x1024, .f32⟩
  | .hbm, ⟨18, _⟩ => ⟨S_, .f32⟩
  | .hbm, ⟨19, _⟩ => ⟨S16x8x512, .f32⟩
  | .hbm, ⟨20, _⟩ => ⟨S_, .f32⟩
  | .hbm, ⟨21, _⟩ => ⟨S16x8x512, .f32⟩
  | .hbm, ⟨22, _⟩ => ⟨S16x8x512, .f32⟩
  | .hbm, ⟨23, _⟩ => ⟨S16x8x512x1, .f32⟩
  | .hbm, ⟨24, _⟩ => ⟨S16x8x512x1024, .f32⟩
  | .hbm, ⟨25, _⟩ => ⟨S16x8x512x1024, .f32⟩
  | .hbm, ⟨26, _⟩ => ⟨S16x8x512x1024, .f32⟩
  | .hbm, ⟨27, _⟩ => ⟨S_, .f32⟩
  | .hbm, ⟨28, _⟩ => ⟨S16x8x512, .f32⟩
  | .hbm, ⟨29, _⟩ => ⟨S16x8x512x1, .f32⟩
  | .hbm, ⟨30, _⟩ => ⟨S16x8x512x1024, .f32⟩
  | .hbm, ⟨31, _⟩ => ⟨S16x8x512x1024, .f32⟩
  | .hbm, ⟨32, _⟩ => ⟨S_, .f32⟩
  | .hbm, ⟨33, _⟩ => ⟨S16x8x512x1024, .f32⟩
  | .hbm, ⟨34, _⟩ => ⟨S16x8x512x1024, .f32⟩
  | .hbm, ⟨35, _⟩ => ⟨S_, .f32⟩
  | .hbm, ⟨36, _⟩ => ⟨S16x8x512, .f32⟩
  | .hbm, ⟨37, _⟩ => ⟨S_, .f32⟩
  | .hbm, ⟨38, _⟩ => ⟨S16x8x512, .f32⟩
  | .hbm, ⟨39, _⟩ => ⟨S16x8x512, .f32⟩
  | .hbm, ⟨40, _⟩ => ⟨S16x8x512x1, .f32⟩
  | .hbm, ⟨41, _⟩ => ⟨S16x8x512x1024, .f32⟩
  | .hbm, ⟨42, _⟩ => ⟨S16x8x512x1024, .f32⟩
  | .hbm, ⟨43, _⟩ => ⟨S16x8x512x1024, .f32⟩
  | .hbm, ⟨44, _⟩ => ⟨S_, .f32⟩
  | .hbm, ⟨45, _⟩ => ⟨S16x8x512, .f32⟩
  | .hbm, ⟨46, _⟩ => ⟨S16x8x512x1, .f32⟩
  | .hbm, ⟨47, _⟩ => ⟨S16x8x512x1024, .f32⟩
  | .hbm, ⟨48, _⟩ => ⟨S16x8x512x1024, .f32⟩
  | .hbm, ⟨49, _⟩ => ⟨S16x8x512x64, .f32⟩
  | .hbm, ⟨50, _⟩ => ⟨S16x8x512x64, .f32⟩
  | .hbm, ⟨51, _⟩ => ⟨S16x512x8x64, .f32⟩
  | .hbm, ⟨52, _⟩ => ⟨S16x512x512, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  shapeCasts_S16x512x512_S16x512x8x64 : S16x512x512.ShapeCasts S16x512x8x64
  transposes_S16x512x8x64_S16x8x512x64_0_2_1_3 : S16x512x8x64.Transposes [0, 2, 1, 3] S16x8x512x64
  shapeCasts_S16x1024x512_S16x1024x8x64 : S16x1024x512.ShapeCasts S16x1024x8x64
  transposes_S16x1024x8x64_S16x8x1024x64_0_2_1_3 : S16x1024x8x64.Transposes [0, 2, 1, 3] S16x8x1024x64
  bcast_S_S16x8x512x1024 : S_.BroadcastsInDim S16x8x512x1024 (![] : Fin 0 → Fin S16x8x512x1024.rank)
  reducesTo_S16x8x512x1024_S16x8x512_d3 : S16x8x512x1024.ReducesTo [3] S16x8x512
  h_S_ : 0 < S_.numel
  bcast_S_S16x8x512 : S_.BroadcastsInDim S16x8x512 (![] : Fin 0 → Fin S16x8x512.rank)
  bcast_S16x8x512_S16x8x512x1_0_1_2 : S16x8x512.BroadcastsInDim S16x8x512x1 (![0, 1, 2] : Fin 3 → Fin S16x8x512x1.rank)
  bcast_S16x8x512x1_S16x8x512x1024_0_1_2_3 : S16x8x512x1.BroadcastsInDim S16x8x512x1024 (![0, 1, 2, 3] : Fin 4 → Fin S16x8x512x1024.rank)
  transposes_S16x8x512x64_S16x512x8x64_0_2_1_3 : S16x8x512x64.Transposes [0, 2, 1, 3] S16x512x8x64
  shapeCasts_S16x512x8x64_S16x512x512 : S16x512x8x64.ShapeCasts S16x512x512
  dot_S16x512x768_S512x768_S16x512x512_2_1_01_0_n_n_wf : DotDims.WF S16x512x768 S512x768 S16x512x512 [2] [1] [0, 1] [0] [] []
  dot_S16x1024x768_S512x768_S16x1024x512_2_1_01_0_n_n_wf : DotDims.WF S16x1024x768 S512x768 S16x1024x512 [2] [1] [0, 1] [0] [] []
  dot_S16x8x512x64_S16x8x1024x64_S16x8x512x1024_3_3_2_2_01_01_wf : DotDims.WF S16x8x512x64 S16x8x1024x64 S16x8x512x1024 [3] [3] [2] [2] [0, 1] [0, 1]
  dot_S16x8x512x1024_S16x8x1024x64_S16x8x512x64_3_2_2_3_01_01_wf : DotDims.WF S16x8x512x1024 S16x8x1024x64 S16x8x512x64 [3] [2] [2] [3] [0, 1] [0, 1]

variable [Facts₀]

def dot_S16x512x768_S512x768_S16x512x512_2_1_01_0_n_n : DotDims S16x512x768 S512x768 S16x512x512 where
  lhsContracting := [2]
  rhsContracting := [1]
  lhsNonContracting := [0, 1]
  rhsNonContracting := [0]
  lhsBatch := []
  rhsBatch := []
  wf := dot_S16x512x768_S512x768_S16x512x512_2_1_01_0_n_n_wf
def dot_S16x1024x768_S512x768_S16x1024x512_2_1_01_0_n_n : DotDims S16x1024x768 S512x768 S16x1024x512 where
  lhsContracting := [2]
  rhsContracting := [1]
  lhsNonContracting := [0, 1]
  rhsNonContracting := [0]
  lhsBatch := []
  rhsBatch := []
  wf := dot_S16x1024x768_S512x768_S16x1024x512_2_1_01_0_n_n_wf
def dot_S16x8x512x64_S16x8x1024x64_S16x8x512x1024_3_3_2_2_01_01 : DotDims S16x8x512x64 S16x8x1024x64 S16x8x512x1024 where
  lhsContracting := [3]
  rhsContracting := [3]
  lhsNonContracting := [2]
  rhsNonContracting := [2]
  lhsBatch := [0, 1]
  rhsBatch := [0, 1]
  wf := dot_S16x8x512x64_S16x8x1024x64_S16x8x512x1024_3_3_2_2_01_01_wf
def dot_S16x8x512x1024_S16x8x1024x64_S16x8x512x64_3_2_2_3_01_01 : DotDims S16x8x512x1024 S16x8x1024x64 S16x8x512x64 where
  lhsContracting := [3]
  rhsContracting := [2]
  lhsNonContracting := [2]
  rhsNonContracting := [3]
  lhsBatch := [0, 1]
  rhsBatch := [0, 1]
  wf := dot_S16x8x512x1024_S16x8x1024x64_S16x8x512x64_3_2_2_3_01_01_wf

class Facts : Prop extends Facts₀ where

variable [Facts]
-- ==== Proof.Attention.lean ====
/-
  Double-softmax cross attention as one function of the five argument arrays, over the
  extended reals: the specification both programs are compared against.

  For batch b, query row n and output column j = 64·h + d (head h, coordinate d):
    Q[b,n,j] = Σ_e x[b,n,e]·Wq[j,e],  K[b,m,j] = Σ_e y[b,m,e]·Wk[j,e],  V[b,m,j] = Σ_e y[b,m,e]·Wv[j,e];
    s[m]     = (Σ_e Q[b,n,64h+e]·K[b,m,64h+e]) · 1/8            (1/8 = 1/√64, exact);
    p        = softmax s,  w = softmax (1 − p)                   (over m = 0 … 1023);
    out[b,n,j] = Q[b,n,j] + Σ_m w[m]·V[b,m,j].
  The softmax is the one both programs spell: subtract max(−∞, row maximum), exponentiate,
  divide by the row sum. Attention is independent row by row, so a head is stated for one
  query row `q : Fin 64 → EReal` against the head's keys and values.
-/
import Idealize.ShloMosaic.PureOps.Ideal
import Idealize.ShloMosaic.Lib.ValueIdx

noncomputable section

namespace Cert.Attention

open Idealize.ShloMosaic Idealize.ShloMosaic.ValueIdx

/-- The three float literals of both programs, as the extended reals their patterns denote:
    1/8, 1 and −∞. They are never evaluated: the same word stands on both sides. -/
abbrev eighth : EReal := Ideal.ofBits .f32 0x3E000000#32
abbrev one : EReal := Ideal.ofBits .f32 0x3F800000#32
abbrev negInf : EReal := Ideal.ofBits .f32 0xFF800000#32

/-- The subtrahend of a softmax row: the larger of −∞ and the row's maximum (a fold of `max` from −∞). -/
def rowMax (r : Fin 1024 → EReal) : EReal :=
  max negInf ((Finset.univ : Finset (Fin 1024)).fold max negInf r)

/-- Softmax of a row of 1024 extended reals, at entry `m`. -/
def softmax (r : Fin 1024 → EReal) (m : Fin 1024) : EReal :=
  Ideal.div (Ideal.exp (r m - rowMax r)) (∑ m' : Fin 1024, Ideal.exp (r m' - rowMax r))

/-- Scaled scores of one query row against 1024 keys of width 64. -/
def scores (q : Fin 64 → EReal) (k : Fin 1024 → Fin 64 → EReal) (m : Fin 1024) : EReal :=
  (∑ e : Fin 64, q e * k m e) * eighth

/-- The attention weights: softmax of one minus the softmax of the scores. -/
def weights (q : Fin 64 → EReal) (k : Fin 1024 → Fin 64 → EReal) : Fin 1024 → EReal :=
  softmax fun m => one - softmax (scores q k) m

/-- One head's output row: the query row plus the weighted sum of the values. -/
def headOut (q : Fin 64 → EReal) (k v : Fin 1024 → Fin 64 → EReal) (d : Fin 64) : EReal :=
  q d + ∑ m : Fin 1024, weights q k m * v m d

/-- Column 64·h + e of a projected array: coordinate `e` of head `h`. -/
def col (h : Fin 8) (e : Fin 64) : Fin 512 := ⟨h.val * 64 + e.val, by have := h.isLt; have := e.isLt; omega⟩

/-- A projection `Σ_e x[b,r,e]·w[j,e]` of a batch of `R` rows of width 768 by a 512 × 768 weight. -/
def proj {R : Nat} (x : (⟨3, ![16, R, 768]⟩ : Shape).Idx → EReal) (w : (⟨2, ![512, 768]⟩ : Shape).Idx → EReal)
    (b : Fin 16) (r : Fin R) (j : Fin 512) : EReal :=
  ∑ e : Fin 768, x (ix3 b r e) * w (ix2 j e)

/-- The head of output column `j`, and the coordinate inside it. -/
def headOf (j : Fin 512) : Fin 8 := ⟨j.val / 64, by have := j.isLt; omega⟩
def coordOf (j : Fin 512) : Fin 64 := ⟨j.val % 64, Nat.mod_lt _ (by decide)⟩

/-- The whole result, index by index. -/
def G (x : (⟨3, ![16, 512, 768]⟩ : Shape).Idx → EReal) (y : (⟨3, ![16, 1024, 768]⟩ : Shape).Idx → EReal)
    (wq wk wv : (⟨2, ![512, 768]⟩ : Shape).Idx → EReal) : (⟨3, ![16, 512, 512]⟩ : Shape).Idx → EReal := fun i =>
  headOut (fun e => proj x wq (i 0) (i 1) (col (headOf (i 2)) e))
    (fun m e => proj y wk (i 0) m (col (headOf (i 2)) e))
    (fun m e => proj y wv (i 0) m (col (headOf (i 2)) e))
    (coordOf (i 2))

theorem col_headOf_coordOf (j : Fin 512) : col (headOf j) (coordOf j) = j :=
  Fin.ext (by simp only [col, headOf, coordOf]; omega)

theorem headOf_col (h : Fin 8) (e : Fin 64) : headOf (col h e) = h :=
  Fin.ext (by simp only [col, headOf]; have := e.isLt; omega)

theorem coordOf_col (h : Fin 8) (e : Fin 64) : coordOf (col h e) = e :=
  Fin.ext (by simp only [col, coordOf]; have := e.isLt; omega)

end Cert.Attention

end
-- ==== Proof.LibScratchRead.lean ====
/-
  Two general facts about reading arrays through rectangles.

  * A buffer written WHOLE by one store and then loaded through any rectangle (a scratch buffer
    filled once and read back in strips) reads the stored array through that rectangle.
  * Prefixing the single coordinate of a leading unit axis to a rank-2 index (r, e) gives the
    rank-3 index (0, r, e): how a [1, A, B] block's rows are named once its unit axis is dropped.
-/
import Idealize.ShloMosaic.Lib.ValueIdx
import Idealize.ShloMosaic.Lib.Pipeline.Value

noncomputable section

namespace Cert.LibScratchRead

open Idealize.ShloMosaic Idealize.ShloMosaic.ValueIdx

variable {Val : EltTy → Type} [∀ e, Nonempty (Val e)] {e : EltTy}

/-- A whole-buffer store read back through ANY rectangle `r` reads the stored array `W` through `r`:
    the one piece covers every index, so the covered load is `W` at the rectangle's indices. -/
theorem readCov_whole {S : Shape} {sg : RefSig} {κ : Kind} {sp : Space} (v : View sg κ sp S e)
    {off : Fin S.rank → Nat} (hz : off = fun _ => 0) (inb : ∀ a, off a + S.size a ≤ S.size a)
    (W : S.Idx → Val e) (r : Rect S) :
    v.readCov [(⟨Rect.unit off S.size inb, W⟩ : View.Piece Val S e)] r.toLoadRect = View.ld W r := by
  rw [View.readCov_eq_canon_ld _ _ _ (fun y => ⟨_, List.mem_singleton_self _, View.mem_set_unit_zero hz inb y⟩),
    View.canon_unit_zero hz]

/-- Prefixing the one coordinate of a leading unit axis to (r, e) gives (0, r, e). -/
theorem cons_ix2 {A B : Nat} (r : Fin A) (e : Fin B) :
    (Fin.cons ⟨0, Nat.one_pos⟩ (ix2 r e) : (⟨3, ![1, A, B]⟩ : Shape).Idx) = ix3 0 r e :=
  funext fun a => by
    match a with
    | ⟨0, _⟩ => rfl
    | ⟨1, _⟩ => rfl
    | ⟨2, _⟩ => rfl

end Cert.LibScratchRead

end
-- ==== Proof.ProjPayload.lean ====
/-
  The three projections of one batch, read at an index: each is the product of a block of
  768-wide rows (its leading unit axis dropped) with a 768 × 512 weight, accumulated into
  zero — at the extended reals a plain sum over the 768 contracted coordinates, the
  narrowing of the operands to bf16 being the identity there.
-/
import proofs.«146686_j27900107555210_2_alg».proof.Proof.Gen.KernelIdeal.Skeleton
import proofs.«146686_j27900107555210_2_alg».proof.Proof.LibScratchRead
import Idealize.ShloMosaic.Lib.ValueIdx
import Idealize.ShloMosaic.Lib.Pipeline.Value
import Idealize.ShloMosaic.PureOps.Ideal.Laws

noncomputable section

namespace Cert.ProjPayload

open Cert.KernelIdeal Cert.KernelIdeal.Gen Idealize.ShloMosaic Idealize.ShloMosaic.ValueIdx Cert.LibScratchRead

/-- A [512, 768] by [768, 512] product accumulated into zero, at row `n` and column `j`:
    the sum over the 768 contracted coordinates of the operands' products. -/
theorem matmul_rows512 (a : FVec Ideal S512x768 .bf16) (b : FVec Ideal S768x512 .bf16) (n : Fin 512) (j : Fin 512) :
    matmul (F := Ideal) dot_S512x768_S768x512_S512x512_1_0_0_1_n_n none a b (constant (F := Ideal) S512x512 .f32 0x00000000#32) (ix2 n j)
      = ∑ e : Fin 768, a (ix2 n e) * b (ix2 e j) := by
  simp only [matmul]
  rw [Ideal.matmul_constant_zero_apply, ← Equiv.sum_comp (contrEquiv1 dot_S512x768_S768x512_S512x512_1_0_0_1_n_n 768 rfl rfl).symm]
  refine Finset.sum_congr rfl fun e _ => ?_
  have hk := contrEquiv1_symm_val dot_S512x768_S768x512_S512x512_1_0_0_1_n_n 768 rfl rfl e
  have l0 : (dot_S512x768_S768x512_S512x512_1_0_0_1_n_n.lhsIdx (ix2 n j) ((contrEquiv1 dot_S512x768_S768x512_S512x512_1_0_0_1_n_n 768 rfl rfl).symm e) 0).val = n.val := by
    unfold DotDims.lhsIdx
    rw [dif_neg (show ¬(0 : Fin S512x768.rank) ∈ dot_S512x768_S768x512_S512x512_1_0_0_1_n_n.lhsBatch by decide), dif_pos (show (0 : Fin S512x768.rank) ∈ dot_S512x768_S768x512_S512x512_1_0_0_1_n_n.lhsNonContracting by decide)]
    rfl
  have l1 : (dot_S512x768_S768x512_S512x512_1_0_0_1_n_n.lhsIdx (ix2 n j) ((contrEquiv1 dot_S512x768_S768x512_S512x512_1_0_0_1_n_n 768 rfl rfl).symm e) 1).val = e.val :=
    (dot_S512x768_S768x512_S512x512_1_0_0_1_n_n.lhsIdx_val_of_single rfl (ix2 n j) _).trans hk
  have r0 : (dot_S512x768_S768x512_S512x512_1_0_0_1_n_n.rhsIdx (ix2 n j) ((contrEquiv1 dot_S512x768_S768x512_S512x512_1_0_0_1_n_n 768 rfl rfl).symm e) 0).val = e.val :=
    (dot_S512x768_S768x512_S512x512_1_0_0_1_n_n.rhsIdx_val_of_single rfl (ix2 n j) _).trans hk
  have r1 : (dot_S512x768_S768x512_S512x512_1_0_0_1_n_n.rhsIdx (ix2 n j) ((contrEquiv1 dot_S512x768_S768x512_S512x512_1_0_0_1_n_n 768 rfl rfl).symm e) 1).val = j.val := by
    unfold DotDims.rhsIdx
    rw [dif_neg (show ¬(1 : Fin S768x512.rank) ∈ dot_S512x768_S768x512_S512x512_1_0_0_1_n_n.rhsBatch by decide), dif_pos (show (1 : Fin S768x512.rank) ∈ dot_S512x768_S768x512_S512x512_1_0_0_1_n_n.rhsNonContracting by decide)]
    rfl
  have el : dot_S512x768_S768x512_S512x512_1_0_0_1_n_n.lhsIdx (ix2 n j) ((contrEquiv1 dot_S512x768_S768x512_S512x512_1_0_0_1_n_n 768 rfl rfl).symm e) = ix2 n e := funext fun a => Fin.ext (by
    match a with
    | ⟨0, _⟩ => exact l0
    | ⟨1, _⟩ => exact l1)
  have er : dot_S512x768_S768x512_S512x512_1_0_0_1_n_n.rhsIdx (ix2 n j) ((contrEquiv1 dot_S512x768_S768x512_S512x512_1_0_0_1_n_n 768 rfl rfl).symm e) = ix2 e j := funext fun a => Fin.ext (by
    match a with
    | ⟨0, _⟩ => exact r0
    | ⟨1, _⟩ => exact r1)
  rw [el, er]

/-- A [1024, 768] by [768, 512] product accumulated into zero, at row `n` and column `j`:
    the sum over the 768 contracted coordinates of the operands' products. -/
theorem matmul_rows1024 (a : FVec Ideal S1024x768 .bf16) (b : FVec Ideal S768x512 .bf16) (n : Fin 1024) (j : Fin 512) :
    matmul (F := Ideal) dot_S1024x768_S768x512_S1024x512_1_0_0_1_n_n none a b (constant (F := Ideal) S1024x512 .f32 0x00000000#32) (ix2 n j)
      = ∑ e : Fin 768, a (ix2 n e) * b (ix2 e j) := by
  simp only [matmul]
  rw [Ideal.matmul_constant_zero_apply, ← Equiv.sum_comp (contrEquiv1 dot_S1024x768_S768x512_S1024x512_1_0_0_1_n_n 768 rfl rfl).symm]
  refine Finset.sum_congr rfl fun e _ => ?_
  have hk := contrEquiv1_symm_val dot_S1024x768_S768x512_S1024x512_1_0_0_1_n_n 768 rfl rfl e
  have l0 : (dot_S1024x768_S768x512_S1024x512_1_0_0_1_n_n.lhsIdx (ix2 n j) ((contrEquiv1 dot_S1024x768_S768x512_S1024x512_1_0_0_1_n_n 768 rfl rfl).symm e) 0).val = n.val := by
    unfold DotDims.lhsIdx
    rw [dif_neg (show ¬(0 : Fin S1024x768.rank) ∈ dot_S1024x768_S768x512_S1024x512_1_0_0_1_n_n.lhsBatch by decide), dif_pos (show (0 : Fin S1024x768.rank) ∈ dot_S1024x768_S768x512_S1024x512_1_0_0_1_n_n.lhsNonContracting by decide)]
    rfl
  have l1 : (dot_S1024x768_S768x512_S1024x512_1_0_0_1_n_n.lhsIdx (ix2 n j) ((contrEquiv1 dot_S1024x768_S768x512_S1024x512_1_0_0_1_n_n 768 rfl rfl).symm e) 1).val = e.val :=
    (dot_S1024x768_S768x512_S1024x512_1_0_0_1_n_n.lhsIdx_val_of_single rfl (ix2 n j) _).trans hk
  have r0 : (dot_S1024x768_S768x512_S1024x512_1_0_0_1_n_n.rhsIdx (ix2 n j) ((contrEquiv1 dot_S1024x768_S768x512_S1024x512_1_0_0_1_n_n 768 rfl rfl).symm e) 0).val = e.val :=
    (dot_S1024x768_S768x512_S1024x512_1_0_0_1_n_n.rhsIdx_val_of_single rfl (ix2 n j) _).trans hk
  have r1 : (dot_S1024x768_S768x512_S1024x512_1_0_0_1_n_n.rhsIdx (ix2 n j) ((contrEquiv1 dot_S1024x768_S768x512_S1024x512_1_0_0_1_n_n 768 rfl rfl).symm e) 1).val = j.val := by
    unfold DotDims.rhsIdx
    rw [dif_neg (show ¬(1 : Fin S768x512.rank) ∈ dot_S1024x768_S768x512_S1024x512_1_0_0_1_n_n.rhsBatch by decide), dif_pos (show (1 : Fin S768x512.rank) ∈ dot_S1024x768_S768x512_S1024x512_1_0_0_1_n_n.rhsNonContracting by decide)]
    rfl
  have el : dot_S1024x768_S768x512_S1024x512_1_0_0_1_n_n.lhsIdx (ix2 n j) ((contrEquiv1 dot_S1024x768_S768x512_S1024x512_1_0_0_1_n_n 768 rfl rfl).symm e) = ix2 n e := funext fun a => Fin.ext (by
    match a with
    | ⟨0, _⟩ => exact l0
    | ⟨1, _⟩ => exact l1)
  have er : dot_S1024x768_S768x512_S1024x512_1_0_0_1_n_n.rhsIdx (ix2 n j) ((contrEquiv1 dot_S1024x768_S768x512_S1024x512_1_0_0_1_n_n 768 rfl rfl).symm e) = ix2 e j := funext fun a => Fin.ext (by
    match a with
    | ⟨0, _⟩ => exact r0
    | ⟨1, _⟩ => exact r1)
  rw [el, er]

/-- The query projection of the batch's block `x` (512 rows) by the weight `w`, at (n, j). -/
theorem pay2_apply (x : Vec Ideal S1x512x768 .f32) (w : Vec Ideal S768x512 .f32) (n : Fin 512) (j : Fin 512) :
    k0_pay2 (F := Ideal) x w (ix2 n j) = ∑ e : Fin 768, x (ix3 0 n e) * w (ix2 e j) := by
  unfold k0_pay2
  rw [shapeCast_self]
  refine (matmul_rows512 _ _ n j).trans ?_
  refine Finset.sum_congr rfl fun e _ => ?_
  rw [truncf_apply, truncf_apply, shapeCast_self, shapeCast_dropUnit_apply, cons_ix2]

/-- The key projection of the batch's block `y` (1024 rows) by the weight `w`, at (m, j). -/
theorem pay3_apply (y : Vec Ideal S1x1024x768 .f32) (w : Vec Ideal S768x512 .f32) (m : Fin 1024) (j : Fin 512) :
    k0_pay3 (F := Ideal) y w (ix2 m j) = ∑ e : Fin 768, y (ix3 0 m e) * w (ix2 e j) := by
  unfold k0_pay3 k0_pay1
  rw [shapeCast_self]
  refine (matmul_rows1024 _ _ m j).trans ?_
  refine Finset.sum_congr rfl fun e _ => ?_
  rw [truncf_apply, truncf_apply, shapeCast_self, shapeCast_dropUnit_apply, cons_ix2]

/-- The value projection, likewise. -/
theorem pay4_apply (y : Vec Ideal S1x1024x768 .f32) (w : Vec Ideal S768x512 .f32) (m : Fin 1024) (j : Fin 512) :
    k0_pay4 (F := Ideal) y w (ix2 m j) = ∑ e : Fin 768, y (ix3 0 m e) * w (ix2 e j) := by
  unfold k0_pay4 k0_pay1
  rw [shapeCast_self]
  refine (matmul_rows1024 _ _ m j).trans ?_
  refine Finset.sum_congr rfl fun e _ => ?_
  rw [truncf_apply, truncf_apply, shapeCast_self, shapeCast_dropUnit_apply, cons_ix2]

end Cert.ProjPayload

end
-- ==== Proof.HeadPayload.lean ====
/-
  One head of the kernel's double-softmax attention, read index by index.

  The per-head payload takes a block of queries q [512, 64], keys k [1024, 64] and values v [1024, 64] and computes
    s      = (q · kᵀ) · 1/8                        [512, 1024]
    p      = softmax s,   w = softmax (1 − p)      (row by row, over the 1024 keys)
    out    = q + w · v                             [512, 64]
  with every change of format the identity over the extended reals. Each softmax subtracts max(−∞, row maximum),
  exponentiates, and divides by the row sum; the row quantities are kept as a column and spread back along the row.

  The proof reads each operation that is not pointwise (transpose, the two matrix products, the two row reductions,
  the column and spread forms, the added unit axis) at explicit coordinates, then the intermediate arrays bottom-up,
  so that row n, column d of the result is `headOut` of row n of q against k and v, at d.
-/
import proofs.«146686_j27900107555210_2_alg».proof.Proof.Gen.KernelIdeal.Skeleton
import proofs.«146686_j27900107555210_2_alg».proof.Proof.Attention
import Idealize.ShloMosaic.Lib.ValueIdx
import Idealize.ShloMosaic.Lib.Pipeline.Value
import Idealize.ShloMosaic.Lib.ValueLayout
import Idealize.ShloMosaic.PureOps.Ideal.Laws

noncomputable section

namespace Cert.HeadPayload

open Cert.KernelIdeal Cert.KernelIdeal.Gen Idealize.ShloMosaic Idealize.ShloMosaic.ValueIdx Cert.Attention

/-! ## The non-pointwise operations, each read at explicit coordinates -/

/-- The transposed keys at (e, m) are the keys at (m, e). -/
theorem transpose_keys_apply (x : FVec Ideal S1024x64 .bf16) (e : Fin 64) (m : Fin 1024) :
    transpose S64x1024 [1, 0] x transposes_S1024x64_p1_0_S64x1024 (ix2 e m) = x (ix2 m e) :=
  transpose_ix2_apply x transposes_S1024x64_p1_0_S64x1024 e m

theorem matmul_qk_lhs0 (i : S512x1024.Idx) (q : dot_S512x64_S64x1024_S512x1024_1_0_0_1_n_n.contr.Idx) : (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide),
    dif_pos (show (0 : Fin S512x64.rank) ∈ dot_S512x64_S64x1024_S512x1024_1_0_0_1_n_n.lhsNonContracting by decide)]
  rfl
theorem matmul_qk_lhs1 (i : S512x1024.Idx) (q : dot_S512x64_S64x1024_S512x1024_1_0_0_1_n_n.contr.Idx) : (dot_S512x64_S64x1024_S512x1024_1_0_0_1_n_n.lhsIdx i q 1).val = (q ⟨0, by decide⟩).val :=
  dot_S512x64_S64x1024_S512x1024_1_0_0_1_n_n.lhsIdx_val_of_single rfl i q
theorem matmul_qk_rhs0 (i : S512x1024.Idx) (q : dot_S512x64_S64x1024_S512x1024_1_0_0_1_n_n.contr.Idx) : (dot_S512x64_S64x1024_S512x1024_1_0_0_1_n_n.rhsIdx i q 0).val = (q ⟨0, by decide⟩).val :=
  dot_S512x64_S64x1024_S512x1024_1_0_0_1_n_n.rhsIdx_val_of_single rfl i q
theorem matmul_qk_rhs1 (i : S512x1024.Idx) (q : dot_S512x64_S64x1024_S512x1024_1_0_0_1_n_n.contr.Idx) : (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide),
    dif_pos (show (1 : Fin S64x1024.rank) ∈ dot_S512x64_S64x1024_S512x1024_1_0_0_1_n_n.rhsNonContracting by decide)]
  rfl

/-- The [512,64] × [64,1024] product into a zero accumulator, at (n, m): the sum over the 64 shared coordinates. -/
theorem matmul_qk_apply (a : FVec Ideal S512x64 .bf16) (b : FVec Ideal S64x1024 .bf16) (n : Fin 512) (m : Fin 1024) :
    matmul dot_S512x64_S64x1024_S512x1024_1_0_0_1_n_n none a b (constant S512x1024 .f32 0x00000000#32) (ix2 n m)
      = ∑ e : Fin 64, a (ix2 n e) * b (ix2 e m) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 n m) ((contrEquiv1 dot_S512x64_S64x1024_S512x1024_1_0_0_1_n_n 64 rfl rfl).symm k) = ix2 n k :=
    funext fun c => Fin.ext (by
      match c with
      | ⟨0, _⟩ => exact matmul_qk_lhs0 _ _
      | ⟨1, _⟩ => exact (matmul_qk_lhs1 _ _).trans hk)
  have er : dot_S512x64_S64x1024_S512x1024_1_0_0_1_n_n.rhsIdx (ix2 n m) ((contrEquiv1 dot_S512x64_S64x1024_S512x1024_1_0_0_1_n_n 64 rfl rfl).symm k) = ix2 k m :=
    funext fun c => Fin.ext (by
      match c with
      | ⟨0, _⟩ => exact (matmul_qk_rhs0 _ _).trans hk
      | ⟨1, _⟩ => exact matmul_qk_rhs1 _ _)
  rw [el, er]

theorem matmul_wv_lhs0 (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl
theorem matmul_wv_lhs1 (i : S512x64.Idx) (q : dot_S512x1024_S1024x64_S512x64_1_0_0_1_n_n.contr.Idx) : (dot_S512x1024_S1024x64_S512x64_1_0_0_1_n_n.lhsIdx i q 1).val = (q ⟨0, by decide⟩).val :=
  dot_S512x1024_S1024x64_S512x64_1_0_0_1_n_n.lhsIdx_val_of_single rfl i q
theorem matmul_wv_rhs0 (i : S512x64.Idx) (q : dot_S512x1024_S1024x64_S512x64_1_0_0_1_n_n.contr.Idx) : (dot_S512x1024_S1024x64_S512x64_1_0_0_1_n_n.rhsIdx i q 0).val = (q ⟨0, by decide⟩).val :=
  dot_S512x1024_S1024x64_S512x64_1_0_0_1_n_n.rhsIdx_val_of_single rfl i q
theorem matmul_wv_rhs1 (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl

/-- The [512,1024] × [1024,64] product into a zero accumulator, at (n, d): the sum over the 1024 shared coordinates. -/
theorem matmul_wv_apply (a : FVec Ideal S512x1024 .bf16) (b : FVec Ideal S1024x64 .bf16) (n : Fin 512) (m : Fin 64) :
    matmul dot_S512x1024_S1024x64_S512x64_1_0_0_1_n_n none a b (constant S512x64 .f32 0x00000000#32) (ix2 n m)
      = ∑ e : Fin 1024, a (ix2 n e) * b (ix2 e m) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 n m) ((contrEquiv1 dot_S512x1024_S1024x64_S512x64_1_0_0_1_n_n 1024 rfl rfl).symm k) = ix2 n k :=
    funext fun c => Fin.ext (by
      match c with
      | ⟨0, _⟩ => exact matmul_wv_lhs0 _ _
      | ⟨1, _⟩ => exact (matmul_wv_lhs1 _ _).trans hk)
  have er : dot_S512x1024_S1024x64_S512x64_1_0_0_1_n_n.rhsIdx (ix2 n m) ((contrEquiv1 dot_S512x1024_S1024x64_S512x64_1_0_0_1_n_n 1024 rfl rfl).symm k) = ix2 k m :=
    funext fun c => Fin.ext (by
      match c with
      | ⟨0, _⟩ => exact (matmul_wv_rhs0 _ _).trans hk
      | ⟨1, _⟩ => exact matmul_wv_rhs1 _ _)
  rw [el, er]

/-- A row's maximum: the max-reduction over the second axis at row n is the fold of max from -∞ over that row. -/
theorem rowmax_apply (x : FVec Ideal S512x1024 .f32) (n : Fin 512) :
    multiReduction (F := Ideal) .maximumf [1] S512 x 0xFF800000#32 reduces_S512x1024_S512 (.inl rfl) rfl (ix1 n)
      = (Finset.univ : Finset (Fin 1024)).fold max negInf (fun m => x (ix2 n m)) := by
  refine (Ideal.multiReduction_maximumf_single x 0xFF800000#32 reduces_S512x1024_S512 (.inl rfl) rfl (ix1 n)).trans ?_
  have e : (x ∘ reduces_S512x1024_S512.lift (ix1 n)) = fun m : Fin 1024 => x (ix2 n m) :=
    funext fun m => congrArg x (funext fun c => Fin.ext (by
      match c with
      | ⟨0, _⟩ => rfl
      | ⟨1, _⟩ => rfl))
  rw [e, Ideal.ofBits_def]
  rfl

/-- A row's sum: the add-reduction over the second axis at row n is the sum over that row. -/
theorem rowsum_apply (x : FVec Ideal S512x1024 .f32) (n : Fin 512) :
    multiReduction (F := Ideal) .add [1] S512 x 0x00000000#32 reduces_S512x1024_S512 (.inl rfl) rfl (ix1 n)
      = ∑ m : Fin 1024, x (ix2 n m) := by
  refine (Ideal.multiReduction_add_single x 0x00000000#32 reduces_S512x1024_S512 (.inl rfl) rfl (ix1 n)).trans ?_
  refine Finset.sum_congr rfl fun m _ => congrArg x (funext fun c => Fin.ext (by
    match c with
    | ⟨0, _⟩ => rfl
    | ⟨1, _⟩ => rfl))

/-- A vector of 512 entries cast to a column reads, at (n, 0), the vector at n. -/
theorem column_apply {α : Type} (x : S512.Idx → α) (n : Fin 512) (u : Fin 1) :
    shapeCast S512x1 x shapeCasts_S512_S512x1 (ix2 n u) = x (ix1 n) :=
  shapeCast_apply x shapeCasts_S512_S512x1 _ _ (by
    have hu : u.val = 0 := by omega
    rw [Shape.rowMajor_val_two, Shape.rowMajor_val_one]
    show n.val = n.val * 1 + u.val
    rw [hu, Nat.mul_one, Nat.add_zero])

/-- A column broadcast along the rows reads, at (n, m), the column at (n, 0). -/
theorem spread_apply {α : Type} (c : S512x1.Idx → α) (n : Fin 512) (m : Fin 1024) :
    broadcastTo S512x1024 c broadcasts_S512x1_S512x1024 (ix2 n m) = c (ix2 n (0 : Fin 1)) := by
  refine broadcastTo_apply c broadcasts_S512x1_S512x1024 (ix2 n m) (ix2 n (0 : Fin 1)) fun ax => ?_
  match ax with
  | ⟨0, _⟩ => rfl
  | ⟨1, _⟩ => rfl

/-- The result with a leading unit axis added reads, at (0, n, d), the matrix at (n, d). -/
theorem addUnit_apply {α : Type} (x : S512x64.Idx → α) (n : Fin 512) (d : Fin 64) :
    shapeCast S1x512x64 x shapeCasts_S512x64_S1x512x64 (ix3 (0 : Fin 1) n d) = x (ix2 n d) :=
  shapeCast_ab_1ab_apply x shapeCasts_S512x64_S1x512x64 0 n d

/-- The keepdims form of a per-row value: cast to a column and broadcast along the row. -/
theorem keepdims_apply {α : Type} (x : S512.Idx → α) (n : Fin 512) (m : Fin 1024) :
    broadcastTo S512x1024 (shapeCast S512x1 x shapeCasts_S512_S512x1) broadcasts_S512x1_S512x1024 (ix2 n m) = x (ix1 n) :=
  (spread_apply _ n m).trans (column_apply x n 0)

/-! ## The payload's intermediate arrays, each read at an index -/

/-- The scaled scores array: queries times transposed keys, times 1/8. -/
def scoresArr (q : Vec Ideal S512x64 .f32) (k : Vec Ideal S1024x64 .f32) : FVec Ideal S512x1024 .f32 :=
  mulf (matmul dot_S512x64_S64x1024_S512x1024_1_0_0_1_n_n none (truncf .bf16 q bitsLt_bf16_f32)
      (transpose S64x1024 [1, 0] (truncf .bf16 k bitsLt_bf16_f32) transposes_S1024x64_p1_0_S64x1024)
      (constant S512x1024 .f32 0x00000000#32))
    (broadcast S512x1024 (Scalar.ofBits .f32 0x3E000000#32))

theorem scoresArr_apply (q : Vec Ideal S512x64 .f32) (k : Vec Ideal S1024x64 .f32) (n : Fin 512) (m : Fin 1024) :
    scoresArr q k (ix2 n m) = scores (fun e => q (ix2 n e)) (fun m e => k (ix2 m e)) m := by
  unfold scoresArr
  refine (mulf_apply _ _ _).trans ?_
  rw [matmul_qk_apply, broadcast_apply, Ideal.ofBits_def]
  refine congrArg (· * eighth) (Finset.sum_congr rfl fun e _ => ?_)
  rw [transpose_keys_apply]
  rfl

/-- The subtrahend array of a softmax: max(-∞, row maximum), kept as a column and spread along the rows. -/
def rowMaxArr (x : FVec Ideal S512x1024 .f32) : FVec Ideal S512x1024 .f32 :=
  broadcastTo S512x1024
    (shapeCast S512x1
      (maximumf (broadcast S512 (Scalar.ofBits .f32 0xFF800000#32))
        (multiReduction .maximumf [1] S512 x 0xFF800000#32 reduces_S512x1024_S512 (.inl rfl) rfl))
      shapeCasts_S512_S512x1)
    broadcasts_S512x1_S512x1024

theorem rowMaxArr_apply (x : FVec Ideal S512x1024 .f32) (n : Fin 512) (m : Fin 1024) :
    rowMaxArr x (ix2 n m) = rowMax (fun m' => x (ix2 n m')) := by
  refine (keepdims_apply _ n m).trans ?_
  refine (maximumf_apply _ _ _).trans ?_
  rw [broadcast_apply, rowmax_apply, Ideal.ofBits_def]
  rfl

/-- The exponentials of a softmax. -/
def expArr (x : FVec Ideal S512x1024 .f32) : FVec Ideal S512x1024 .f32 := exp (subf x (rowMaxArr x))

theorem expArr_apply (x : FVec Ideal S512x1024 .f32) (n : Fin 512) (m : Fin 1024) :
    expArr x (ix2 n m) = Ideal.exp (x (ix2 n m) - rowMax (fun m' => x (ix2 n m'))) := by
  show Ideal.exp (x (ix2 n m) - rowMaxArr x (ix2 n m)) = _
  rw [rowMaxArr_apply]

/-- The softmax block: exponentials divided by their row sums (kept as a column and spread along the rows). -/
def smaxArr (x : FVec Ideal S512x1024 .f32) : FVec Ideal S512x1024 .f32 :=
  divf (expArr x)
    (broadcastTo S512x1024
      (shapeCast S512x1
        (multiReduction .add [1] S512 (expArr x) 0x00000000#32 reduces_S512x1024_S512 (.inl rfl) rfl)
        shapeCasts_S512_S512x1)
      broadcasts_S512x1_S512x1024)

theorem smaxArr_apply (x : FVec Ideal S512x1024 .f32) (n : Fin 512) (m : Fin 1024) :
    smaxArr x (ix2 n m) = softmax (fun m' => x (ix2 n m')) m := by
  show Ideal.div (expArr x (ix2 n m))
    (broadcastTo S512x1024
      (shapeCast S512x1
        (multiReduction (F := Ideal) .add [1] S512 (expArr x) 0x00000000#32 reduces_S512x1024_S512 (.inl rfl) rfl)
        shapeCasts_S512_S512x1)
      broadcasts_S512x1_S512x1024 (ix2 n m)) = _
  rw [keepdims_apply, rowsum_apply]
  simp only [expArr_apply]
  rfl

/-- The payload as a composition of the arrays above. -/
theorem k0_pay5_eq (q : Vec Ideal S512x64 .f32) (k v : Vec Ideal S1024x64 .f32) :
    k0_pay5 (F := Ideal) q k v
      = shapeCast S1x512x64
          (addf q
            (matmul dot_S512x1024_S1024x64_S512x64_1_0_0_1_n_n none
              (truncf .bf16
                (smaxArr (subf (broadcast S512x1024 (Scalar.ofBits .f32 0x3F800000#32)) (smaxArr (scoresArr q k))))
                bitsLt_bf16_f32)
              (truncf .bf16 v bitsLt_bf16_f32) (constant S512x64 .f32 0x00000000#32)))
          shapeCasts_S512x64_S1x512x64 := rfl

/-- One head of the kernel, index by index: the query row plus the doubly-softmaxed weights times the values. -/
theorem head_payload (q : Vec Ideal S512x64 .f32) (k v : Vec Ideal S1024x64 .f32) (n : Fin 512) (d : Fin 64) :
    k0_pay5 (F := Ideal) q k v (ix3 0 n d)
      = headOut (fun e => q (ix2 n e)) (fun m e => k (ix2 m e)) (fun m e => v (ix2 m e)) d := by
  rw [k0_pay5_eq]
  refine (addUnit_apply _ n d).trans ?_
  refine (addf_apply _ _ _).trans ?_
  rw [matmul_wv_apply]
  simp only [truncf_apply, smaxArr_apply, subf_apply, broadcast_apply, scoresArr_apply, Ideal.ofBits_def]
  rfl

/-! ## The other seven heads run the same payload -/
theorem k0_pay6_eq : k0_pay6 (F := Ideal) = k0_pay5 (F := Ideal) := rfl
theorem k0_pay7_eq : k0_pay7 (F := Ideal) = k0_pay5 (F := Ideal) := rfl
theorem k0_pay8_eq : k0_pay8 (F := Ideal) = k0_pay5 (F := Ideal) := rfl
theorem k0_pay9_eq : k0_pay9 (F := Ideal) = k0_pay5 (F := Ideal) := rfl
theorem k0_pay10_eq : k0_pay10 (F := Ideal) = k0_pay5 (F := Ideal) := rfl
theorem k0_pay11_eq : k0_pay11 (F := Ideal) = k0_pay5 (F := Ideal) := rfl
theorem k0_pay12_eq : k0_pay12 (F := Ideal) = k0_pay5 (F := Ideal) := rfl

/-- The same reading for each of the other seven payloads. -/
theorem head_payload6 (q : Vec Ideal S512x64 .f32) (k v : Vec Ideal S1024x64 .f32) (n : Fin 512) (d : Fin 64) :
    k0_pay6 (F := Ideal) q k v (ix3 0 n d)
      = headOut (fun e => q (ix2 n e)) (fun m e => k (ix2 m e)) (fun m e => v (ix2 m e)) d := by
  rw [k0_pay6_eq]; exact head_payload q k v n d
theorem head_payload7 (q : Vec Ideal S512x64 .f32) (k v : Vec Ideal S1024x64 .f32) (n : Fin 512) (d : Fin 64) :
    k0_pay7 (F := Ideal) q k v (ix3 0 n d)
      = headOut (fun e => q (ix2 n e)) (fun m e => k (ix2 m e)) (fun m e => v (ix2 m e)) d := by
  rw [k0_pay7_eq]; exact head_payload q k v n d
theorem head_payload8 (q : Vec Ideal S512x64 .f32) (k v : Vec Ideal S1024x64 .f32) (n : Fin 512) (d : Fin 64) :
    k0_pay8 (F := Ideal) q k v (ix3 0 n d)
      = headOut (fun e => q (ix2 n e)) (fun m e => k (ix2 m e)) (fun m e => v (ix2 m e)) d := by
  rw [k0_pay8_eq]; exact head_payload q k v n d
theorem head_payload9 (q : Vec Ideal S512x64 .f32) (k v : Vec Ideal S1024x64 .f32) (n : Fin 512) (d : Fin 64) :
    k0_pay9 (F := Ideal) q k v (ix3 0 n d)
      = headOut (fun e => q (ix2 n e)) (fun m e => k (ix2 m e)) (fun m e => v (ix2 m e)) d := by
  rw [k0_pay9_eq]; exact head_payload q k v n d
theorem head_payload10 (q : Vec Ideal S512x64 .f32) (k v : Vec Ideal S1024x64 .f32) (n : Fin 512) (d : Fin 64) :
    k0_pay10 (F := Ideal) q k v (ix3 0 n d)
      = headOut (fun e => q (ix2 n e)) (fun m e => k (ix2 m e)) (fun m e => v (ix2 m e)) d := by
  rw [k0_pay10_eq]; exact head_payload q k v n d
theorem head_payload11 (q : Vec Ideal S512x64 .f32) (k v : Vec Ideal S1024x64 .f32) (n : Fin 512) (d : Fin 64) :
    k0_pay11 (F := Ideal) q k v (ix3 0 n d)
      = headOut (fun e => q (ix2 n e)) (fun m e => k (ix2 m e)) (fun m e => v (ix2 m e)) d := by
  rw [k0_pay11_eq]; exact head_payload q k v n d
theorem head_payload12 (q : Vec Ideal S512x64 .f32) (k v : Vec Ideal S1024x64 .f32) (n : Fin 512) (d : Fin 64) :
    k0_pay12 (F := Ideal) q k v (ix3 0 n d)
      = headOut (fun e => q (ix2 n e)) (fun m e => k (ix2 m e)) (fun m e => v (ix2 m e)) d := by
  rw [k0_pay12_eq]; exact head_payload q k v n d

end Cert.HeadPayload

end
-- ==== Proof.BlockValue.lean ====
/-
  What one grid point leaves in the output's staging buffer, as ONE function of the batch's
  projected arrays. The body writes the buffer in eight column strips of width 64, strip h
  holding head h's rows; each strip's value is the head's arithmetic applied to the same
  64-column strip of the three projections, which the body stored whole to its scratch
  buffers and read back strip by strip. So at (0, n, 64·h + d) the buffer holds head h's
  output row n at coordinate d, computed from columns 64·h … 64·h + 63 of Q, K and V.
-/
import proofs.«146686_j27900107555210_2_alg».proof.Proof.Gen.KernelIdeal.Frame
import proofs.«146686_j27900107555210_2_alg».proof.Proof.Attention
import proofs.«146686_j27900107555210_2_alg».proof.Proof.HeadPayload
import proofs.«146686_j27900107555210_2_alg».proof.Proof.LibScratchRead
import Idealize.ShloMosaic.Lib.ValueIdx
import Idealize.ShloMosaic.Lib.Pipeline.Value

set_option maxRecDepth 16384

noncomputable section

namespace Cert.BlockValue

open Cert.KernelIdeal Cert.KernelIdeal.Gen Idealize.ShloMosaic Idealize.ShloMosaic.ValueIdx Idealize.ShloMosaic.TcCoe
open Idealize.ShloMosaic.Tactic Idealize.SL Idealize.SL.Sem Cert.Attention
open Cert.HeadPayload Cert.LibScratchRead

theorem hz2 : (![0, 0] : Fin 2 → Nat) = fun _ => 0 := funext fun a => by fin_cases a <;> rfl
theorem hz3 : (![0, 0, 0] : Fin 3 → Nat) = fun _ => 0 := funext fun a => by fin_cases a <;> rfl

/-- Row and column of an index of the [1, 512, 512] block. -/
def row (y : S1x512x512.Idx) : Fin 512 := ⟨(y 1).val, (y 1).isLt⟩
def colm (y : S1x512x512.Idx) : Fin 512 := ⟨(y 2).val, (y 2).isLt⟩

/-- The block as a function of the batch's projected arrays Q [512, 512], K and V [1024, 512]:
    at row n and column j, head ⌊j/64⌋'s output row n at coordinate j mod 64. -/
def headsOf (Q : S512x512.Idx → EReal) (K V : S1024x512.Idx → EReal) : S1x512x512.Idx → EReal := fun y =>
  headOut (fun e => Q (ix2 (row y) (col (headOf (colm y)) e)))
    (fun m e => K (ix2 m (col (headOf (colm y)) e)))
    (fun m e => V (ix2 m (col (headOf (colm y)) e)))
    (coordOf (colm y))

/-- Strip `h` of the block: the head's arithmetic on the strips of the stored projections, read
    where the strip's rectangle places it, is `headsOf` there. -/
theorem strip_eq (arg7 : Memref sig .tc .vmem S512x512 .f32) (arg8 arg9 : Memref sig .tc .vmem S1024x512 .f32)
    (Q : S512x512.Idx → EReal) (K V : S1024x512.Idx → EReal) (o : Nat) (h : Fin 8) (ho : o = h.val * 64)
    (i7 : ∀ a, (![0, 0] : Fin 2 → Nat) a + S512x512.size a ≤ S512x512.size a)
    (i8 i9 : ∀ a, (![0, 0] : Fin 2 → Nat) a + S1024x512.size a ≤ S1024x512.size a)
    (j7 : ∀ a, (![0, o] : Fin 2 → Nat) a + S512x64.size a ≤ S512x512.size a)
    (j8 j9 : ∀ a, (![0, o] : Fin 2 → Nat) a + S1024x64.size a ≤ S1024x512.size a)
    (j6 : ∀ a, (![0, 0, o] : Fin 3 → Nat) a + (![1, 512, 64] : Fin 3 → Nat) a ≤ S1x512x512.size a)
    (x : S1x512x64.Idx) :
    k0_pay5 (F := Ideal)
        (arg7.view.readCov [(⟨Rect.unit ![0, 0] S512x512.size i7, Q⟩ : View.Piece (Elt Ideal) S512x512 .f32)] (Rect.unit (s := S512x512) ![0, o] S512x64.size j7).toLoadRect)
        (arg8.view.readCov [(⟨Rect.unit ![0, 0] S1024x512.size i8, K⟩ : View.Piece (Elt Ideal) S1024x512 .f32)] (Rect.unit (s := S1024x512) ![0, o] S1024x64.size j8).toLoadRect)
        (arg9.view.readCov [(⟨Rect.unit ![0, 0] S1024x512.size i9, V⟩ : View.Piece (Elt Ideal) S1024x512 .f32)] (Rect.unit (s := S1024x512) ![0, o] S1024x64.size j9).toLoadRect)
        x
      = headsOf Q K V ((Rect.unit (s := S1x512x512) ![0, 0, o] ![1, 512, 64] j6).emb x) := by
  subst ho
  obtain ⟨a, n, d, rfl⟩ : ∃ (a : Fin 1) (n : Fin 512) (d : Fin 64), x = ix3 a n d := ⟨x 0, x 1, x 2, eq_ix3 x⟩
  obtain rfl : a = 0 := Subsingleton.elim _ _
  rw [readCov_whole _ hz2, readCov_whole _ hz2, readCov_whole _ hz2, head_payload]
  have hrow : row ((Rect.unit (s := S1x512x512) ![0, 0, h.val * 64] ![1, 512, 64] j6).emb (ix3 0 n d)) = n :=
    Fin.ext (by show 0 + 1 * n.val = n.val; omega)
  have hcol : colm ((Rect.unit (s := S1x512x512) ![0, 0, h.val * 64] ![1, 512, 64] j6).emb (ix3 0 n d)) = col h d :=
    Fin.ext (by show h.val * 64 + 1 * d.val = h.val * 64 + d.val; omega)
  unfold headsOf
  rw [hrow, hcol, headOf_col, coordOf_col]
  have e7 : ∀ (r : Fin 512) (e : Fin 64), (Rect.unit (s := S512x512) ![0, h.val * 64] S512x64.size j7).idx (ix2 r e) = ix2 r (col h e) := fun r e =>
    funext fun a => Fin.ext (by
      match a with
      | ⟨0, _⟩ => show 0 + 1 * r.val = r.val; omega
      | ⟨1, _⟩ => show h.val * 64 + 1 * e.val = h.val * 64 + e.val; omega)
  have e8 : ∀ (r : Fin 1024) (e : Fin 64), (Rect.unit (s := S1024x512) ![0, h.val * 64] S1024x64.size j8).idx (ix2 r e) = ix2 r (col h e) := fun r e =>
    funext fun a => Fin.ext (by
      match a with
      | ⟨0, _⟩ => show 0 + 1 * r.val = r.val; omega
      | ⟨1, _⟩ => show h.val * 64 + 1 * e.val = h.val * 64 + e.val; omega)
  simp only [View.ld, e7, e8]

/-- The staging buffer after the body: `headsOf` of the three projections of the point's input
    blocks. Its eight stored strips tile the block, and each agrees with `headsOf` through its
    rectangle (`strip_eq`), the loads of the input blocks reading them whole. -/
theorem staged_eq (c : Dev nD) (i : grid0.Coords) (arg1 : Memref sig .tc .vmem S1x512x768 .f32) (harg1 : arg1.IsWhole) (arg2 : Memref sig .tc .vmem S1x1024x768 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S768x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1024x512 .f32) (harg8 : arg8.IsWhole) (arg9 : Memref sig .tc .vmem S1024x512 .f32) (harg9 : arg9.IsWhole) (x0 : Vec Ideal S1x512x768 .f32) (x1 : Vec Ideal S1x1024x768 .f32) (x2 : Vec Ideal S768x512 .f32) (x3 : Vec Ideal S768x512 .f32) (x4 : Vec Ideal S768x512 .f32) :
    out0_A_5 (F := Ideal) c i arg1 harg1 arg2 harg2 arg3 harg3 arg4 harg4 arg5 harg5 arg6 harg6 arg7 harg7 arg8 harg8 arg9 harg9 x0 x1 x2 x3 x4 = headsOf (k0_pay2 (F := Ideal) x0 x2) (k0_pay3 (F := Ideal) x1 x3) (k0_pay4 (F := Ideal) x1 x4) := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  funext y
  refine View.canon_apply_of_pieces (headsOf (k0_pay2 (F := Ideal) x0 x2) (k0_pay3 (F := Ideal) x1 x3) (k0_pay4 (F := Ideal) x1 x4)) _ ?_ y
    (cover0_A_5 c i arg1 harg1 arg2 harg2 arg3 harg3 arg4 harg4 arg5 harg5 arg6 harg6 arg7 harg7 arg8 harg8 arg9 harg9 x0 x1 x2 x3 x4 y)
  unfold kernelRun0_A
  dsimp only
  sl_unfold_words
  simp only [k0_pay6_eq, k0_pay7_eq, k0_pay8_eq, k0_pay9_eq, k0_pay10_eq, k0_pay11_eq, k0_pay12_eq]
  simp only [View.readAt_eq_ld, harg1.read_unread, harg2.read_unread, harg3.read_unread, harg4.read_unread, harg5.read_unread,
    View.ld_unit_zero (S := S1x512x768) hz3, View.ld_unit_zero (S := S1x1024x768) hz3, View.ld_unit_zero (S := S768x512) hz2]
  intro p hp x
  simp only [List.mem_cons, List.not_mem_nil, or_false] at hp
  rcases hp with rfl | rfl | rfl | rfl | rfl | rfl | rfl | rfl
  · exact strip_eq arg7 arg8 arg9 _ _ _ 448 7 rfl Facts₀.inb_S512x512_S512x512_0_0 Facts₀.inb_S1024x512_S1024x512_0_0 Facts₀.inb_S1024x512_S1024x512_0_0 Facts₀.inb_S512x512_S512x64_0_448 Facts₀.inb_S1024x512_S1024x64_0_448 Facts₀.inb_S1024x512_S1024x64_0_448 Facts₀.inb_S1x512x512_S1x512x64_0_0_448 x
  · exact strip_eq arg7 arg8 arg9 _ _ _ 384 6 rfl Facts₀.inb_S512x512_S512x512_0_0 Facts₀.inb_S1024x512_S1024x512_0_0 Facts₀.inb_S1024x512_S1024x512_0_0 Facts₀.inb_S512x512_S512x64_0_384 Facts₀.inb_S1024x512_S1024x64_0_384 Facts₀.inb_S1024x512_S1024x64_0_384 Facts₀.inb_S1x512x512_S1x512x64_0_0_384 x
  · exact strip_eq arg7 arg8 arg9 _ _ _ 320 5 rfl Facts₀.inb_S512x512_S512x512_0_0 Facts₀.inb_S1024x512_S1024x512_0_0 Facts₀.inb_S1024x512_S1024x512_0_0 Facts₀.inb_S512x512_S512x64_0_320 Facts₀.inb_S1024x512_S1024x64_0_320 Facts₀.inb_S1024x512_S1024x64_0_320 Facts₀.inb_S1x512x512_S1x512x64_0_0_320 x
  · exact strip_eq arg7 arg8 arg9 _ _ _ 256 4 rfl Facts₀.inb_S512x512_S512x512_0_0 Facts₀.inb_S1024x512_S1024x512_0_0 Facts₀.inb_S1024x512_S1024x512_0_0 Facts₀.inb_S512x512_S512x64_0_256 Facts₀.inb_S1024x512_S1024x64_0_256 Facts₀.inb_S1024x512_S1024x64_0_256 Facts₀.inb_S1x512x512_S1x512x64_0_0_256 x
  · exact strip_eq arg7 arg8 arg9 _ _ _ 192 3 rfl Facts₀.inb_S512x512_S512x512_0_0 Facts₀.inb_S1024x512_S1024x512_0_0 Facts₀.inb_S1024x512_S1024x512_0_0 Facts₀.inb_S512x512_S512x64_0_192 Facts₀.inb_S1024x512_S1024x64_0_192 Facts₀.inb_S1024x512_S1024x64_0_192 Facts₀.inb_S1x512x512_S1x512x64_0_0_192 x
  · exact strip_eq arg7 arg8 arg9 _ _ _ 128 2 rfl Facts₀.inb_S512x512_S512x512_0_0 Facts₀.inb_S1024x512_S1024x512_0_0 Facts₀.inb_S1024x512_S1024x512_0_0 Facts₀.inb_S512x512_S512x64_0_128 Facts₀.inb_S1024x512_S1024x64_0_128 Facts₀.inb_S1024x512_S1024x64_0_128 Facts₀.inb_S1x512x512_S1x512x64_0_0_128 x
  · exact strip_eq arg7 arg8 arg9 _ _ _ 64 1 rfl Facts₀.inb_S512x512_S512x512_0_0 Facts₀.inb_S1024x512_S1024x512_0_0 Facts₀.inb_S1024x512_S1024x512_0_0 Facts₀.inb_S512x512_S512x64_0_64 Facts₀.inb_S1024x512_S1024x64_0_64 Facts₀.inb_S1024x512_S1024x64_0_64 Facts₀.inb_S1x512x512_S1x512x64_0_0_64 x
  · exact strip_eq arg7 arg8 arg9 _ _ _ 0 0 rfl Facts₀.inb_S512x512_S512x512_0_0 Facts₀.inb_S1024x512_S1024x512_0_0 Facts₀.inb_S1024x512_S1024x512_0_0 Facts₀.inb_S512x512_S512x64_0_0 Facts₀.inb_S1024x512_S1024x64_0_0 Facts₀.inb_S1024x512_S1024x64_0_0 Facts₀.inb_S1x512x512_S1x512x64_0_0_0 x

end Cert.BlockValue

end
-- ==== Proof.KernelValue.lean ====
/-
  From blocks to the array. The grid has one point per batch; point t stages batch t of the
  two activation arrays and the three transposed weights whole, and writes back the
  [1, 512, 512] block of batch t. What it writes is the specification `G` of the five
  ARGUMENT arrays read through that block: the activations' rows of batch t are the
  argument's, and a transposed weight at (e, j) is the weight at (j, e), so each projection
  is the specification's `proj`. The sixteen blocks cover the result array, hence after the
  run the result array is `G` of the arguments.
-/
import proofs.«146686_j27900107555210_2_alg».proof.Proof.Gen.KernelIdeal.Value
import proofs.«146686_j27900107555210_2_alg».proof.Proof.Attention
import proofs.«146686_j27900107555210_2_alg».proof.Proof.ProjPayload
import proofs.«146686_j27900107555210_2_alg».proof.Proof.BlockValue
import Idealize.ShloMosaic.Lib.ValueIdx
import Idealize.ShloMosaic.Lib.Pipeline.Value
import Idealize.ShloMosaic.Lib.StableHlo.Run

set_option maxRecDepth 16384

noncomputable section

namespace Cert.KernelValue

open Cert.KernelIdeal Cert.KernelIdeal.Gen Idealize.ShloMosaic Idealize.ShloMosaic.ValueIdx Idealize.ShloMosaic.TcCoe
open Idealize.SL.Sem Cert.Attention Cert.BlockValue Idealize.ShloMosaic.StableHlo
open Idealize.ShloMosaic.Pipeline (Dat)

variable (m : (ℓ : Loc nD τ sig) → Buf (Elt Ideal) ℓ) (ρ : Dev nD → PrngReg)

/-- The printed index maps, decided over the sixteen grid points: the two activations' and the
    output's blocks are batch `t`, whole in the other axes; the three weights' block is the whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The batch a grid point works on. -/
def batch (t : Fin cfg0.N) : Fin 16 := ⟨t.val, t.isLt⟩

/-- A transposed weight at (e, j) is the weight at (j, e). -/
theorem transposed_apply (W : S512x768.Idx → EReal) (e : Fin 768) (j : Fin 512) :
    transpose S768x512 [1, 0] W Facts₀.transposes_S512x768_S768x512_1_0 (ix2 e j) = W (ix2 j e) :=
  transpose_apply _ _ _ _ (ix2 j e) (fun b => by
    match b with
    | ⟨0, _⟩ => rfl
    | ⟨1, _⟩ => rfl)

/-- What the region finds in the three transposed-weight arrays: the host transposes of the arguments. -/
theorem V_main_v0 (c : Dev nD) : (V m c main_v0 : S768x512.Idx → EReal)
    = transpose S768x512 [1, 0] (m ((c : Thread nD τ).loc main_arg2)) Facts₀.transposes_S512x768_S768x512_1_0 := by
  dsimp only [Gen.V, Gen.hostOps0]; after_results
theorem V_main_v1 (c : Dev nD) : (V m c main_v1 : S768x512.Idx → EReal)
    = transpose S768x512 [1, 0] (m ((c : Thread nD τ).loc main_arg3)) Facts₀.transposes_S512x768_S768x512_1_0 := by
  dsimp only [Gen.V, Gen.hostOps0]; after_results
theorem V_main_v2 (c : Dev nD) : (V m c main_v2 : S768x512.Idx → EReal)
    = transpose S768x512 [1, 0] (m ((c : Thread nD τ).loc main_arg4)) Facts₀.transposes_S512x768_S768x512_1_0 := by
  dsimp only [Gen.V, Gen.hostOps0]; after_results

/-- The activations' blocks: row (0, r, e) of the block at point `t` is row (t, r, e) of the argument. -/
theorem read_x (c : Dev nD) (t : Fin cfg0.N) (r : Fin 512) (e : Fin 768) :
    iblk m c 0 t (ix3 0 r e) = (m ((c : Thread nD τ).loc main_arg0)) (ix3 (batch t) r e) := by
  have ef := idx_facts t
  show V m c main_arg0 (((cfg0.win 0).blk t).view.emb (ix3 0 r e)) = _
  have hemb : ((cfg0.win 0).blk t).view.emb (ix3 0 r e) = ix3 (batch t) r e := funext fun a => Fin.ext (by
    match a with
    | ⟨0, _⟩ => show win0_0.index t (0 : Fin 3) * 1 + 1 * 0 = t.val; omega
    | ⟨1, _⟩ => show win0_0.index t (1 : Fin 3) * 512 + 1 * r.val = r.val; omega
    | ⟨2, _⟩ => show win0_0.index t (2 : Fin 3) * 768 + 1 * e.val = e.val; omega)
  rw [hemb, V_main_arg0]

theorem read_y (c : Dev nD) (t : Fin cfg0.N) (r : Fin 1024) (e : Fin 768) :
    iblk m c 1 t (ix3 0 r e) = (m ((c : Thread nD τ).loc main_arg1)) (ix3 (batch t) r e) := by
  have ef := idx_facts t
  show V m c main_arg1 (((cfg0.win 1).blk t).view.emb (ix3 0 r e)) = _
  have hemb : ((cfg0.win 1).blk t).view.emb (ix3 0 r e) = ix3 (batch t) r e := funext fun a => Fin.ext (by
    match a with
    | ⟨0, _⟩ => show win0_1.index t (0 : Fin 3) * 1 + 1 * 0 = t.val; omega
    | ⟨1, _⟩ => show win0_1.index t (1 : Fin 3) * 1024 + 1 * r.val = r.val; omega
    | ⟨2, _⟩ => show win0_1.index t (2 : Fin 3) * 768 + 1 * e.val = e.val; omega)
  rw [hemb, V_main_arg1]

/-- Weight window 2 stages the whole transposed weight: its block at (e, j) is the argument at (j, e). -/
theorem read_wq (c : Dev nD) (t : Fin cfg0.N) (e : Fin 768) (j : Fin 512) :
    iblk m c 2 t (ix2 e j) = (m ((c : Thread nD τ).loc main_arg2)) (ix2 j e) := by
  have ef := idx_facts t
  show V m c main_v0 (((cfg0.win 2).blk t).view.emb (ix2 e j)) = _
  have hemb : ((cfg0.win 2).blk t).view.emb (ix2 e j) = ix2 e j := funext fun a => Fin.ext (by
    match a with
    | ⟨0, _⟩ => show win0_2.index t (0 : Fin 2) * 768 + 1 * e.val = e.val; omega
    | ⟨1, _⟩ => show win0_2.index t (1 : Fin 2) * 512 + 1 * j.val = j.val; omega)
  rw [hemb, V_main_v0, transposed_apply]

/-- Weight window 3 stages the whole transposed weight: its block at (e, j) is the argument at (j, e). -/
theorem read_wk (c : Dev nD) (t : Fin cfg0.N) (e : Fin 768) (j : Fin 512) :
    iblk m c 3 t (ix2 e j) = (m ((c : Thread nD τ).loc main_arg3)) (ix2 j e) := by
  have ef := idx_facts t
  show V m c main_v1 (((cfg0.win 3).blk t).view.emb (ix2 e j)) = _
  have hemb : ((cfg0.win 3).blk t).view.emb (ix2 e j) = ix2 e j := funext fun a => Fin.ext (by
    match a with
    | ⟨0, _⟩ => show win0_3.index t (0 : Fin 2) * 768 + 1 * e.val = e.val; omega
    | ⟨1, _⟩ => show win0_3.index t (1 : Fin 2) * 512 + 1 * j.val = j.val; omega)
  rw [hemb, V_main_v1, transposed_apply]

/-- Weight window 4 stages the whole transposed weight: its block at (e, j) is the argument at (j, e). -/
theorem read_wv (c : Dev nD) (t : Fin cfg0.N) (e : Fin 768) (j : Fin 512) :
    iblk m c 4 t (ix2 e j) = (m ((c : Thread nD τ).loc main_arg4)) (ix2 j e) := by
  have ef := idx_facts t
  show V m c main_v2 (((cfg0.win 4).blk t).view.emb (ix2 e j)) = _
  have hemb : ((cfg0.win 4).blk t).view.emb (ix2 e j) = ix2 e j := funext fun a => Fin.ext (by
    match a with
    | ⟨0, _⟩ => show win0_4.index t (0 : Fin 2) * 768 + 1 * e.val = e.val; omega
    | ⟨1, _⟩ => show win0_4.index t (1 : Fin 2) * 512 + 1 * j.val = j.val; omega)
  rw [hemb, V_main_v2, transposed_apply]

/-- One grid point, over plain variables: if the five staged blocks read batch `b` of the
    activations and the transposed weights, the staged output block is `G` at batch `b`. -/
theorem point_eq (x0 : Vec Ideal S1x512x768 .f32) (x1 : Vec Ideal S1x1024x768 .f32) (x2 x3 x4 : Vec Ideal S768x512 .f32)
    (a0 : S16x512x768.Idx → EReal) (a1 : S16x1024x768.Idx → EReal) (w2 w3 w4 : S512x768.Idx → EReal) (b : Fin 16)
    (h0 : ∀ (r : Fin 512) (e : Fin 768), x0 (ix3 0 r e) = a0 (ix3 b r e))
    (h1 : ∀ (r : Fin 1024) (e : Fin 768), x1 (ix3 0 r e) = a1 (ix3 b r e))
    (h2 : ∀ (e : Fin 768) (j : Fin 512), x2 (ix2 e j) = w2 (ix2 j e))
    (h3 : ∀ (e : Fin 768) (j : Fin 512), x3 (ix2 e j) = w3 (ix2 j e))
    (h4 : ∀ (e : Fin 768) (j : Fin 512), x4 (ix2 e j) = w4 (ix2 j e))
    (y : S1x512x512.Idx) :
    headsOf (k0_pay2 (F := Ideal) x0 x2) (k0_pay3 (F := Ideal) x1 x3) (k0_pay4 (F := Ideal) x1 x4) y
      = G a0 a1 w2 w3 w4 (ix3 b (row y) (colm y)) := by
  unfold headsOf G proj
  simp only [ProjPayload.pay2_apply, ProjPayload.pay3_apply, ProjPayload.pay4_apply, h0, h1, h2, h3, h4]

/-- What point `t` writes back is block `t` of `G` of the argument arrays. -/
theorem flushed_eq (c : Dev nD) (t : Fin cfg0.N) :
    (dats m 0 c).flushed 5 t = ((cfg0.win 5).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5_A, staged_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)]
  have ef := idx_facts t
  funext y
  show headsOf (k0_pay2 (F := Ideal) (iblk m c 0 t) (iblk m c 2 t)) (k0_pay3 (F := Ideal) (iblk m c 1 t) (iblk m c 3 t)) (k0_pay4 (F := Ideal) (iblk m c 1 t) (iblk m c 4 t)) y
    = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y)
  refine (point_eq (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4)) (batch t)
    (read_x m c t) (read_y m c t) (read_wq m c t) (read_wk m c t) (read_wv m c t) y).trans ?_
  have hemb : ((cfg0.win 5).blk t).view.emb y = ix3 (batch t) (row y) (colm y) := funext fun a => Fin.ext (by
    match a with
    | ⟨0, _⟩ =>
      have h0 : (y 0).val < 1 := (y 0).isLt
      show win0_5.index t (0 : Fin 3) * 1 + 1 * (y 0).val = t.val; omega
    | ⟨1, _⟩ => show win0_5.index t (1 : Fin 3) * 512 + 1 * (y 1).val = (y 1).val; omega
    | ⟨2, _⟩ => show win0_5.index t (2 : Fin 3) * 512 + 1 * (y 2).val = (y 2).val; omega)
  rw [hemb]

/-- An index of the result array is in point `t`'s block iff each coordinate is in the block's range. -/
theorem mem_blk (t : Fin cfg0.N) (i : S16x512x512.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v3).slice (win0_5.rect t)).set ↔ _
  rw [View.set_slice_whole, Rect.mem_set_unit]
  exact Iff.rfl

/-- Every index of the result is in the block of the point of its batch. -/
theorem cover (i : S16x512x512.Idx) :
    ∃ t : Fin cfg0.N, (cfg0.win 5).flush t = true ∧ i ∈ ((cfg0.win 5).blk t).view.set := by
  have h0 : (i 0).val < 16 := (i 0).isLt
  have h1 : (i 1).val < 512 := (i 1).isLt
  have h2 : (i 2).val < 512 := (i 2).isLt
  refine ⟨⟨(i 0).val, h0⟩, flush0_5 _, ?_⟩
  obtain ⟨-, -, -, -, -, -, -, -, -, -, -, -, e0, e1, e2⟩ := idx_facts ⟨(i 0).val, h0⟩
  have e0' : win0_5.index ⟨(i 0).val, h0⟩ (0 : Fin 3) = (i 0).val := e0
  rw [mem_blk]
  intro a
  match a with
  | ⟨0, _⟩ => show win0_5.index ⟨(i 0).val, h0⟩ (0 : Fin 3) * 1 ≤ (i 0).val ∧ (i 0).val < win0_5.index ⟨(i 0).val, h0⟩ (0 : Fin 3) * 1 + 1; omega
  | ⟨1, _⟩ => show win0_5.index ⟨(i 0).val, h0⟩ (1 : Fin 3) * 512 ≤ (i 1).val ∧ (i 1).val < win0_5.index ⟨(i 0).val, h0⟩ (1 : Fin 3) * 512 + 512; omega
  | ⟨2, _⟩ => show win0_5.index ⟨(i 0).val, h0⟩ (2 : Fin 3) * 512 ≤ (i 2).val ∧ (i 2).val < win0_5.index ⟨(i 0).val, h0⟩ (2 : Fin 3) * 512 + 512; omega

/-- The result array after the run is `G` of the argument arrays. -/
theorem final (c : Dev nD) : (dats m 0 c).arrAt 5 cfg0.N = G (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) cover

/-- The kernel's run: every weakly fair execution terminates with the result at `G` of the
    arguments and the arguments unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelValue

end
-- ==== Proof.RefValue.lean ====
/-
  The reference program read at an index: its result at (b, n, j) is the double-softmax cross
  attention `Cert.Attention.G` of the five argument arrays.

  The program projects the two inputs by the three weights, splits the 512 projected columns into
  8 heads of 64 coordinates (a reshape followed by a transpose), forms the scaled scores of every
  query row against the 1024 keys, applies the softmax twice (the second time to one minus the
  first), sums the values by the resulting weights, adds the query projection and undoes the head
  split. Each stage is read at an index through the generated `val_…_apply` lemmas; the two row
  maxima are read as folds of `max` over the 1024 key positions.
-/
import proofs.«146686_j27900107555210_2_alg».proof.Proof.Gen.ReferenceIdeal.Read
import proofs.«146686_j27900107555210_2_alg».proof.Proof.Attention

noncomputable section

namespace Cert.RefValue

open Cert.ReferenceIdeal Cert.ReferenceIdeal.Gen Cert.ReferenceIdeal.Read Cert.Attention
open Idealize.ShloMosaic Idealize.ShloMosaic.ValueIdx

/-! ## The three projections, head by head -/

/-- The query projection at batch `b`, head `h`, row `n`, coordinate `e` is column `64·h + e` of the
    projected row: the reshape and the transpose only rename the index. -/
theorem q_apply (x0 : (⟨S16x512x768, .f32⟩ : BufTy).Contents (Elt Ideal)) (x2 : (⟨S512x768, .f32⟩ : BufTy).Contents (Elt Ideal))
    (b : Fin 16) (h : Fin 8) (n : Fin 512) (e : Fin 64) :
    val_main_v2 (F := Ideal) x0 x2 (ix4 b h n e) = proj x0 x2 b n (col h e) := by
  rw [val_main_v2_apply, val_main_v1_apply, val_main_v0_apply]
  unfold proj
  refine Finset.sum_congr rfl fun k _ => ?_
  have hb := b.isLt; have hh := h.isLt; have hn := n.isLt; have he := e.isLt
  have el : lidx_main_v0 (idx_main_v1 (idx_main_v2 (ix4 b h n e))) k = ix3 b n k := funext fun a => Fin.ext (by
    match a with
    | ⟨0, _⟩ => show (((b.val * 512 + n.val) * 8 + h.val) * 64 + e.val) / 262144 = b.val; omega
    | ⟨1, _⟩ => show (((b.val * 512 + n.val) * 8 + h.val) * 64 + e.val) / 512 % 512 = n.val; omega
    | ⟨2, _⟩ => rfl)
  have er : ridx_main_v0 (idx_main_v1 (idx_main_v2 (ix4 b h n e))) k = ix2 (col h e) k := funext fun a => Fin.ext (by
    match a with
    | ⟨0, _⟩ => show (((b.val * 512 + n.val) * 8 + h.val) * 64 + e.val) % 512 = h.val * 64 + e.val; omega
    | ⟨1, _⟩ => rfl)
  rw [el, er]

/-- The key projection at batch `b`, head `h`, key position `m`, coordinate `e`. -/
theorem k_apply (x1 : (⟨S16x1024x768, .f32⟩ : BufTy).Contents (Elt Ideal)) (x3 : (⟨S512x768, .f32⟩ : BufTy).Contents (Elt Ideal))
    (b : Fin 16) (h : Fin 8) (m : Fin 1024) (e : Fin 64) :
    val_main_v5 (F := Ideal) x1 x3 (ix4 b h m e) = proj x1 x3 b m (col h e) := by
  rw [val_main_v5_apply, val_main_v4_apply, val_main_v3_apply]
  unfold proj
  refine Finset.sum_congr rfl fun k _ => ?_
  have hb := b.isLt; have hh := h.isLt; have hm := m.isLt; have he := e.isLt
  have el : lidx_main_v3 (idx_main_v4 (idx_main_v5 (ix4 b h m e))) k = ix3 b m k := funext fun a => Fin.ext (by
    match a with
    | ⟨0, _⟩ => show (((b.val * 1024 + m.val) * 8 + h.val) * 64 + e.val) / 524288 = b.val; omega
    | ⟨1, _⟩ => show (((b.val * 1024 + m.val) * 8 + h.val) * 64 + e.val) / 512 % 1024 = m.val; omega
    | ⟨2, _⟩ => rfl)
  have er : ridx_main_v3 (idx_main_v4 (idx_main_v5 (ix4 b h m e))) k = ix2 (col h e) k := funext fun a => Fin.ext (by
    match a with
    | ⟨0, _⟩ => show (((b.val * 1024 + m.val) * 8 + h.val) * 64 + e.val) % 512 = h.val * 64 + e.val; omega
    | ⟨1, _⟩ => rfl)
  rw [el, er]

/-- The value projection at batch `b`, head `h`, key position `m`, coordinate `e`. -/
theorem v_apply (x1 : (⟨S16x1024x768, .f32⟩ : BufTy).Contents (Elt Ideal)) (x4 : (⟨S512x768, .f32⟩ : BufTy).Contents (Elt Ideal))
    (b : Fin 16) (h : Fin 8) (m : Fin 1024) (e : Fin 64) :
    val_main_v8 (F := Ideal) x1 x4 (ix4 b h m e) = proj x1 x4 b m (col h e) := by
  rw [val_main_v8_apply, val_main_v7_apply, val_main_v6_apply]
  unfold proj
  refine Finset.sum_congr rfl fun k _ => ?_
  have hb := b.isLt; have hh := h.isLt; have hm := m.isLt; have he := e.isLt
  have el : lidx_main_v6 (idx_main_v7 (idx_main_v8 (ix4 b h m e))) k = ix3 b m k := funext fun a => Fin.ext (by
    match a with
    | ⟨0, _⟩ => show (((b.val * 1024 + m.val) * 8 + h.val) * 64 + e.val) / 524288 = b.val; omega
    | ⟨1, _⟩ => show (((b.val * 1024 + m.val) * 8 + h.val) * 64 + e.val) / 512 % 1024 = m.val; omega
    | ⟨2, _⟩ => rfl)
  have er : ridx_main_v6 (idx_main_v7 (idx_main_v8 (ix4 b h m e))) k = ix2 (col h e) k := funext fun a => Fin.ext (by
    match a with
    | ⟨0, _⟩ => show (((b.val * 1024 + m.val) * 8 + h.val) * 64 + e.val) % 512 = h.val * 64 + e.val; omega
    | ⟨1, _⟩ => rfl)
  rw [el, er]

/-! ## The scaled scores -/

/-- The scores of query row `n` of head `h` against key position `m`: the 64-term dot product of the
    two projections, times one eighth. -/
theorem scores_apply (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (m : Fin 1024) :
    val_main_v11 (F := Ideal) x0 x1 x2 x3 (ix4 b h n m)
      = scores (fun e => proj x0 x2 b n (col h e)) (fun m e => proj x1 x3 b m (col h e)) m := by
  rw [val_main_v11_apply, val_main_v9_apply, val_main_v10_apply, val_main_cst_apply]
  unfold scores
  show (∑ k : Fin 64, _) * eighth = _
  refine congrArg (· * eighth) (Finset.sum_congr rfl fun k _ => ?_)
  have el : lidx_main_v9 (ix4 b h n m) k = ix4 b h n k := funext fun a => Fin.ext (by
    match a with
    | ⟨0, _⟩ => rfl
    | ⟨1, _⟩ => rfl
    | ⟨2, _⟩ => rfl
    | ⟨3, _⟩ => rfl)
  have er : ridx_main_v9 (ix4 b h n m) k = ix4 b h m k := funext fun a => Fin.ext (by
    match a with
    | ⟨0, _⟩ => rfl
    | ⟨1, _⟩ => rfl
    | ⟨2, _⟩ => rfl
    | ⟨3, _⟩ => rfl)
  rw [el, er, q_apply, k_apply]

/-! ## A row's maximum -/

theorem reduces_d3 : S16x8x512x1024.Reduces [3] S16x8x512 := by decide

/-- A maximum-reduction along the key axis, read at (b, h, n): the fold of `max`, from the initial
    value, over the 1024 key positions of that row. -/
theorem reduceMax_apply (x : FVec Ideal S16x8x512x1024 .f32) (init : FVec Ideal S_ .f32) (b : Fin 16) (h : Fin 8) (n : Fin 512) :
    Host.reduce FloatOps.maximumf x init reducesTo_S16x8x512x1024_S16x8x512_d3 h_S_ (ix3 b h n)
      = (Finset.univ : Finset (Fin 1024)).fold max (init (Shape.Idx.first h_S_)) (fun m => x (ix4 b h n m)) := by
  have hl : ∀ m : Fin 1024, reduces_d3.lift (ix3 b h n) m = ix4 b h n m := fun m => funext fun a => Fin.ext (by
    match a with
    | ⟨0, _⟩ => rfl
    | ⟨1, _⟩ => rfl
    | ⟨2, _⟩ => rfl
    | ⟨3, _⟩ => rfl)
  rw [Host.reduce_eq_fold_single FloatOps.maximumf x init reducesTo_S16x8x512x1024_S16x8x512_d3 reduces_d3 h_S_ (ix3 b h n)]
  exact congrArg (fun f => (Finset.univ : Finset (Fin 1024)).fold max (init (Shape.Idx.first h_S_)) f)
    (funext fun m => congrArg x (hl m))

/-- The two broadcasts that carry a per-row value back along the key axis read it at the row. -/
theorem row_of_bcast (b : Fin 16) (h : Fin 8) (n : Fin 512) (m : Fin 1024) :
    idx_main_v15 (idx_main_v16 (ix4 b h n m)) = ix3 b h n := funext fun a => Fin.ext (by
  match a with
  | ⟨0, _⟩ => rfl
  | ⟨1, _⟩ => rfl
  | ⟨2, _⟩ => rfl)

/-- The index a sum along the key axis reads at key position `k` of row (b, h, n). -/
theorem row_at (b : Fin 16) (h : Fin 8) (n : Fin 512) (k : Fin 1024) :
    idx_main_v19 (ix3 b h n) k = ix4 b h n k := funext fun a => Fin.ext (by
  match a with
  | ⟨0, _⟩ => rfl
  | ⟨1, _⟩ => rfl
  | ⟨2, _⟩ => rfl
  | ⟨3, _⟩ => rfl)

/-! ## The first softmax -/

section First
variable (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal))
  (b : Fin 16) (h : Fin 8) (n : Fin 512)

/-- The subtrahend of the first softmax at row (b, h, n). -/
theorem rowMax1_apply :
    val_main_v14 (F := Ideal) x0 x1 x2 x3 (ix3 b h n)
      = rowMax (fun m => val_main_v11 (F := Ideal) x0 x1 x2 x3 (ix4 b h n m)) := by
  rw [val_main_v14_apply, val_main_v13_apply, val_main_cst_1_apply]
  unfold val_main_v12 rowMax
  rw [reduceMax_apply]
  rfl

/-- The exponentials of the first softmax. -/
theorem exp1_apply (m : Fin 1024) :
    val_main_v18 (F := Ideal) x0 x1 x2 x3 (ix4 b h n m)
      = Ideal.exp (val_main_v11 (F := Ideal) x0 x1 x2 x3 (ix4 b h n m)
          - rowMax (fun m => val_main_v11 (F := Ideal) x0 x1 x2 x3 (ix4 b h n m))) := by
  rw [val_main_v18_apply, val_main_v17_apply, val_main_v16_apply, val_main_v15_apply, row_of_bcast, rowMax1_apply]
  rfl

/-- Their sum along the row. -/
theorem sum1_apply :
    val_main_v19 (F := Ideal) x0 x1 x2 x3 (ix3 b h n)
      = ∑ m' : Fin 1024, Ideal.exp (val_main_v11 (F := Ideal) x0 x1 x2 x3 (ix4 b h n m')
          - rowMax (fun m => val_main_v11 (F := Ideal) x0 x1 x2 x3 (ix4 b h n m))) := by
  rw [val_main_v19_apply, val_main_cst_2_apply]
  show Ideal.ofBits .f32 0x00000000#32 + _ = _
  rw [Ideal.ofBits_zero_f32, zero_add]
  exact Finset.sum_congr rfl fun k _ => by rw [row_at, exp1_apply]

/-- The first softmax, as the softmax of the row it is taken of. -/
theorem softmax1_row (m : Fin 1024) :
    val_main_v22 (F := Ideal) x0 x1 x2 x3 (ix4 b h n m)
      = softmax (fun m => val_main_v11 (F := Ideal) x0 x1 x2 x3 (ix4 b h n m)) m := by
  rw [val_main_v22_apply, val_main_v21_apply, val_main_v20_apply,
    show idx_main_v20 (idx_main_v21 (ix4 b h n m)) = ix3 b h n from row_of_bcast b h n m,
    sum1_apply, exp1_apply]
  rfl

/-- The first softmax is the softmax of the row of scores. -/
theorem softmax1_apply (m : Fin 1024) :
    val_main_v22 (F := Ideal) x0 x1 x2 x3 (ix4 b h n m)
      = softmax (scores (fun e => proj x0 x2 b n (col h e)) (fun m e => proj x1 x3 b m (col h e))) m := by
  rw [softmax1_row, show (fun m => val_main_v11 (F := Ideal) x0 x1 x2 x3 (ix4 b h n m))
      = scores (fun e => proj x0 x2 b n (col h e)) (fun m e => proj x1 x3 b m (col h e)) from
    funext fun m => scores_apply x0 x1 x2 x3 b h n m]

end First

/-! ## The second softmax -/

section Second
variable (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal))
  (b : Fin 16) (h : Fin 8) (n : Fin 512)

/-- The row the second softmax is taken of: one minus the first softmax. -/
theorem row2_apply (m : Fin 1024) :
    val_main_v24 (F := Ideal) x0 x1 x2 x3 (ix4 b h n m)
      = one - softmax (scores (fun e => proj x0 x2 b n (col h e)) (fun m e => proj x1 x3 b m (col h e))) m := by
  rw [val_main_v24_apply, val_main_v23_apply, val_main_cst_3_apply, softmax1_apply]
  rfl

/-- The subtrahend of the second softmax at row (b, h, n). -/
theorem rowMax2_apply :
    val_main_v27 (F := Ideal) x0 x1 x2 x3 (ix3 b h n) = rowMax (fun m => val_main_v24 (F := Ideal) x0 x1 x2 x3 (ix4 b h n m)) := by
  rw [val_main_v27_apply, val_main_v26_apply, val_main_cst_5_apply]
  unfold val_main_v25 rowMax
  rw [reduceMax_apply]
  rfl

/-- The exponentials of the second softmax. -/
theorem exp2_apply (m : Fin 1024) :
    val_main_v31 (F := Ideal) x0 x1 x2 x3 (ix4 b h n m)
      = Ideal.exp (val_main_v24 (F := Ideal) x0 x1 x2 x3 (ix4 b h n m) - rowMax (fun m => val_main_v24 (F := Ideal) x0 x1 x2 x3 (ix4 b h n m))) := by
  rw [val_main_v31_apply, val_main_v30_apply, val_main_v29_apply, val_main_v28_apply,
    show idx_main_v28 (idx_main_v29 (ix4 b h n m)) = ix3 b h n from row_of_bcast b h n m, rowMax2_apply]
  rfl

/-- Their sum along the row. -/
theorem sum2_apply :
    val_main_v32 (F := Ideal) x0 x1 x2 x3 (ix3 b h n)
      = ∑ m' : Fin 1024, Ideal.exp (val_main_v24 (F := Ideal) x0 x1 x2 x3 (ix4 b h n m') - rowMax (fun m => val_main_v24 (F := Ideal) x0 x1 x2 x3 (ix4 b h n m))) := by
  rw [val_main_v32_apply, val_main_cst_6_apply]
  show Ideal.ofBits .f32 0x00000000#32 + _ = _
  rw [Ideal.ofBits_zero_f32, zero_add]
  exact Finset.sum_congr rfl fun k _ => by
    rw [show idx_main_v32 (ix3 b h n) k = ix4 b h n k from row_at b h n k, exp2_apply]

/-- The second softmax, as the softmax of the row it is taken of. -/
theorem softmax2_row (m : Fin 1024) :
    val_main_v35 (F := Ideal) x0 x1 x2 x3 (ix4 b h n m) = softmax (fun m => val_main_v24 (F := Ideal) x0 x1 x2 x3 (ix4 b h n m)) m := by
  rw [val_main_v35_apply, val_main_v34_apply, val_main_v33_apply,
    show idx_main_v33 (idx_main_v34 (ix4 b h n m)) = ix3 b h n from row_of_bcast b h n m,
    sum2_apply, exp2_apply]
  rfl

/-- The second softmax gives the attention weights. -/
theorem weights_apply (m : Fin 1024) :
    val_main_v35 (F := Ideal) x0 x1 x2 x3 (ix4 b h n m) = weights (fun e => proj x0 x2 b n (col h e)) (fun m e => proj x1 x3 b m (col h e)) m := by
  rw [softmax2_row, show (fun m => val_main_v24 (F := Ideal) x0 x1 x2 x3 (ix4 b h n m))
      = (fun m => one - softmax (scores (fun e => proj x0 x2 b n (col h e)) (fun m e => proj x1 x3 b m (col h e))) m) from
    funext fun m => row2_apply x0 x1 x2 x3 b h n m]
  rfl

end Second

/-! ## The output -/

/-- One head's output at row `n`, coordinate `d`: the query projection plus the values summed by the weights. -/
theorem out_apply (x0 : (⟨S16x512x768, .f32⟩ : BufTy).Contents (Elt Ideal)) (x1 : (⟨S16x1024x768, .f32⟩ : BufTy).Contents (Elt Ideal))
    (x2 x3 x4 : (⟨S512x768, .f32⟩ : BufTy).Contents (Elt Ideal))
    (b : Fin 16) (h : Fin 8) (n : Fin 512) (d : Fin 64) :
    val_main_v37 (F := Ideal) x0 x1 x2 x3 x4 (ix4 b h n d) = headOut (fun e => proj x0 x2 b n (col h e)) (fun m e => proj x1 x3 b m (col h e)) (fun m e => proj x1 x4 b m (col h e)) d := by
  rw [val_main_v37_apply, val_main_v36_apply, q_apply]
  unfold headOut
  show _ + _ = _ + _
  refine congrArg (proj x0 x2 b n (col h d) + ·) (Finset.sum_congr rfl fun k _ => ?_)
  have el : lidx_main_v36 (ix4 b h n d) k = ix4 b h n k := funext fun a => Fin.ext (by
    match a with
    | ⟨0, _⟩ => rfl
    | ⟨1, _⟩ => rfl
    | ⟨2, _⟩ => rfl
    | ⟨3, _⟩ => rfl)
  have er : ridx_main_v36 (ix4 b h n d) k = ix4 b h k d := funext fun a => Fin.ext (by
    match a with
    | ⟨0, _⟩ => rfl
    | ⟨1, _⟩ => rfl
    | ⟨2, _⟩ => rfl
    | ⟨3, _⟩ => rfl)
  rw [el, er, weights_apply, v_apply]

/-- Undoing the head split: output column `j` of row `n` is coordinate `j mod 64` of head `j / 64`. -/
theorem unsplit (b : Fin 16) (n : Fin 512) (j : Fin 512) :
    idx_main_v38 (idx_main_v39 (ix3 b n j)) = ix4 b (headOf j) n (coordOf j) := funext fun a => Fin.ext (by
  have hb := b.isLt; have hn := n.isLt; have hj := j.isLt
  match a with
  | ⟨0, _⟩ => show ((b.val * 512 + n.val) * 512 + j.val) / 262144 = b.val; omega
  | ⟨1, _⟩ => show ((b.val * 512 + n.val) * 512 + j.val) / 64 % 8 = j.val / 64; omega
  | ⟨2, _⟩ => show ((b.val * 512 + n.val) * 512 + j.val) / 512 % 512 = n.val; omega
  | ⟨3, _⟩ => show ((b.val * 512 + n.val) * 512 + j.val) % 64 = j.val % 64; omega)

/-- The reference program computes the double-softmax cross attention `G`. -/
theorem ref_eq (x0 : (⟨S16x512x768, .f32⟩ : BufTy).Contents (Elt Ideal)) (x1 : (⟨S16x1024x768, .f32⟩ : BufTy).Contents (Elt Ideal))
    (x2 x3 x4 : (⟨S512x768, .f32⟩ : BufTy).Contents (Elt Ideal)) :
    val_main_v39 (F := Ideal) x0 x1 x2 x3 x4 = G x0 x1 x2 x3 x4 := by
  funext i
  obtain ⟨b, n, j, rfl⟩ : ∃ b n j, i = ix3 b n j := ⟨i 0, i 1, i 2, eq_ix3 i⟩
  rw [val_main_v39_apply, val_main_v38_apply, unsplit, out_apply]
  rfl

end Cert.RefValue

end
-- ==== Proof.lean ====
/-
  The kernel computes, per batch, the three projections q = x·Wqᵀ, k = y·Wkᵀ, v = y·Wvᵀ and,
  for each of eight heads (64-column strips), out_h = q_h + softmax(1 − softmax(q_h·k_hᵀ/8))·v_h,
  written to columns 64·h … 64·h + 63 of the result. The reference computes the same
  projections for all batches at once, splits the 512 columns into 8 × 64 by a reshape and a
  transpose, applies the same two softmaxes, and merges the heads back.

  At the extended reals both results are ONE function `Cert.Attention.G` of the five argument
  arrays, index by index: the kernel's narrowing of matmul operands is the identity there, a
  matrix product is a plain finite sum on both sides, 1/8, 1 and −∞ are the same words in both
  programs, and the softmax is spelled the same way (subtract max(−∞, row maximum),
  exponentiate, divide by the row sum). No algebraic law beyond re-indexing finite sums is
  needed, so the finiteness of the inputs is never used.

  The kernel's side (`Cert.KernelValue.run`): each grid point's staging buffer is the heads'
  function of the point's projected blocks, the blocks tile the result. The reference's side
  (`Cert.RefValue.ref_eq`): its run's term, read one operation at a time, is `G`.
  The three frames are the generated ones; the idealization rewrote nothing.
-/
import proofs.«146686_j27900107555210_2_alg».proof.Defs
import proofs.«146686_j27900107555210_2_alg».proof.Proof.Gen.Kernel
import proofs.«146686_j27900107555210_2_alg».proof.Proof.Gen.Kernel.Skeleton
import proofs.«146686_j27900107555210_2_alg».proof.Proof.Gen.Kernel.Launch
import proofs.«146686_j27900107555210_2_alg».proof.Proof.Gen.Kernel.Points
import proofs.«146686_j27900107555210_2_alg».proof.Proof.Gen.Kernel.Frame
import proofs.«146686_j27900107555210_2_alg».proof.Proof.Gen.KernelIdeal
import proofs.«146686_j27900107555210_2_alg».proof.Proof.Gen.KernelIdeal.Skeleton
import proofs.«146686_j27900107555210_2_alg».proof.Proof.Gen.KernelIdeal.Launch
import proofs.«146686_j27900107555210_2_alg».proof.Proof.Gen.KernelIdeal.Points
import proofs.«146686_j27900107555210_2_alg».proof.Proof.Gen.KernelIdeal.Frame
import proofs.«146686_j27900107555210_2_alg».proof.Proof.Gen.ReferenceIdeal
import proofs.«146686_j27900107555210_2_alg».proof.Proof.Gen.Pre_finite_inputs
import proofs.«146686_j27900107555210_2_alg».proof.Proof.Gen.KernelIdeal.Value
import proofs.«146686_j27900107555210_2_alg».proof.Proof.Gen.ReferenceIdeal.Run
import proofs.«146686_j27900107555210_2_alg».proof.Proof.Gen.ReferenceIdeal.Read
import proofs.«146686_j27900107555210_2_alg».proof.Proof.KernelValue
import proofs.«146686_j27900107555210_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the result array at
    `G` of those arguments: the kernel by its run, the reference by its run's term being `G`. -/
theorem algebraic : Cert.algebraic_KernelIdeal_ReferenceIdeal := by
  intro m ρ m' ρ' _ hagree
  refine ⟨fun c => Cert.Attention.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v39_eq, Cert.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
